-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x128x256 : Shape := ⟨4, ![8, 64, 128, 256]⟩
abbrev S256x64 : Shape := ⟨2, ![256, 64]⟩
abbrev S256x256 : Shape := ⟨2, ![256, 256]⟩
abbrev S_ : Shape := ⟨0, ![]⟩

class Facts : Prop where
  bcast_S_S8x64x128x256 : S_.BroadcastsInDim S8x64x128x256 (![] : Fin 0 → Fin S8x64x128x256.rank)
  reducesTo_S8x64x128x256_S_d0_1_2_3 : S8x64x128x256.ReducesTo [0, 1, 2, 3] S_
  h_S_ : 0 < S_.numel
  bcast_S_S256x64 : S_.BroadcastsInDim S256x64 (![] : Fin 0 → Fin S256x64.rank)
  reducesTo_S256x64_S_d0_1 : S256x64.ReducesTo [0, 1] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S8x64x128x256 .f32) (main_arg1 : FVec F S256x64 .f32) (main_arg2 : FVec F S256x64 .f32) (main_arg3 : FVec F S256x256 .f32) : IVec S_ 1 :=
  let main_v0 : FVec F S8x64x128x256 .f32 := Host.absf main_arg0
  let main_cst : FVec F S_ .f32 := constant S_ .f32 0x7F800000#32
  let main_v1 : FVec F S8x64x128x256 .f32 := broadcastInDim S8x64x128x256 ![] bcast_S_S8x64x128x256 main_cst
  let main_v2 : IVec S8x64x128x256 1 := cmpf .olt main_v0 main_v1
  let main_c : IVec S_ 1 := constantI S_ 1 1#1
  let main_v3 : IVec S_ 1 := (fun x v => Host.reduce IntOp.andi x v reducesTo_S8x64x128x256_S_d0_1_2_3 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S8x64x128x256 : Shape := ⟨4, ![8, 64, 128, 256]⟩
abbrev S256x64 : Shape := ⟨2, ![256, 64]⟩
abbrev S256x256 : Shape := ⟨2, ![256, 256]⟩
abbrev S1x64x128x256 : Shape := ⟨4, ![1, 64, 128, 256]⟩
abbrev S64x128x64 : Shape := ⟨3, ![64, 128, 64]⟩
abbrev S64x128x256 : Shape := ⟨3, ![64, 128, 256]⟩
abbrev S1x16x128x256 : Shape := ⟨4, ![1, 16, 128, 256]⟩
abbrev S16x128x256 : Shape := ⟨3, ![16, 128, 256]⟩
abbrev S2048x256 : Shape := ⟨2, ![2048, 256]⟩
abbrev S2048x64 : Shape := ⟨2, ![2048, 64]⟩
abbrev S16x128x64 : Shape := ⟨3, ![16, 128, 64]⟩
abbrev S1x64x16x256 : Shape := ⟨4, ![1, 64, 16, 256]⟩
abbrev S64x16x256 : Shape := ⟨3, ![64, 16, 256]⟩
abbrev S1024x256 : Shape := ⟨2, ![1024, 256]⟩
abbrev S1024x64 : Shape := ⟨2, ![1024, 64]⟩
abbrev S64x16x64 : Shape := ⟨3, ![64, 16, 64]⟩
abbrev S64x16x128 : Shape := ⟨3, ![64, 16, 128]⟩
abbrev S16x128 : Shape := ⟨2, ![16, 128]⟩
abbrev S1x16x128 : Shape := ⟨3, ![1, 16, 128]⟩

abbrev nBuf : Space → Nat
  | .hbm => 8
  | .vmem => 9
  | .smem => 0
  | _ => 0

abbrev bufTy : (tb : Table) → Fin (tcTables nBuf tb) → BufTy
  | .hbm, ⟨0, _⟩ => ⟨S8x64x128x256, .f32⟩
  | .hbm, ⟨1, _⟩ => ⟨S256x64, .f32⟩
  | .hbm, ⟨2, _⟩ => ⟨S256x64, .f32⟩
  | .hbm, ⟨3, _⟩ => ⟨S256x256, .f32⟩
  | .hbm, ⟨4, _⟩ => ⟨S256x64, .bf16⟩
  | .hbm, ⟨5, _⟩ => ⟨S256x64, .bf16⟩
  | .hbm, ⟨6, _⟩ => ⟨S256x256, .bf16⟩
  | .hbm, ⟨7, _⟩ => ⟨S8x64x128x256, .f32⟩
  | .local _ .vmem, ⟨0, _⟩ => ⟨S1x64x128x256, .f32⟩
  | .local _ .vmem, ⟨1, _⟩ => ⟨S1x64x128x256, .f32⟩
  | .local _ .vmem, ⟨2, _⟩ => ⟨S256x64, .bf16⟩
  | .local _ .vmem, ⟨3, _⟩ => ⟨S256x64, .bf16⟩
  | .local _ .vmem, ⟨4, _⟩ => ⟨S256x256, .bf16⟩
  | .local _ .vmem, ⟨5, _⟩ => ⟨S1x64x128x256, .f32⟩
  | .local _ .vmem, ⟨6, _⟩ => ⟨S1x64x128x256, .f32⟩
  | .local _ .vmem, ⟨7, _⟩ => ⟨S64x128x64, .f32⟩
  | .local _ .vmem, ⟨8, _⟩ => ⟨S64x128x256, .bf16⟩
  | _, _ => ⟨S8x64x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x64x128x256_S1x16x128x256_0_0_0_0 : ∀ a, (![0, 0, 0, 0] : Fin 4 → Nat) a + S1x16x128x256.size a ≤ S1x64x128x256.size a
  h_S1x16x128x256 : 0 < S1x16x128x256.numel
  shapeCasts_S1x16x128x256_S16x128x256 : S1x16x128x256.ShapeCasts S16x128x256
  shapeCasts_S16x128x256_S2048x256 : S16x128x256.ShapeCasts S2048x256
  shapeCasts_S2048x64_S16x128x64 : S2048x64.ShapeCasts S16x128x64
  inb_S64x128x64_S16x128x64_0_0_0 : ∀ a, (![0, 0, 0] : Fin 3 → Nat) a + S16x128x64.size a ≤ S64x128x64.size a
  h_S16x128x64 : 0 < S16x128x64.numel
  shapeCasts_S16x128x64_S16x128x64 : S16x128x64.ShapeCasts S16x128x64
  shapeCasts_S2048x256_S16x128x256 : S2048x256.ShapeCasts S16x128x256
  inb_S64x128x256_S16x128x256_0_0_0 : ∀ a, (![0, 0, 0] : Fin 3 → Nat) a + S16x128x256.size a ≤ S64x128x256.size a
  h_S16x128x256 : 0 < S16x128x256.numel
  shapeCasts_S16x128x256_S16x128x256 : S16x128x256.ShapeCasts S16x128x256
  packedbf16_S64x128x256_S16x128x256_0_0_0 : (Rect.unit (s := S64x128x256) ![0, 0, 0] S16x128x256.size inb_S64x128x256_S16x128x256_0_0_0).PackedRows (EltTy.packing .bf16)
  inb_S1x64x128x256_S1x16x128x256_0_16_0_0 : ∀ a, (![0, 16, 0, 0] : Fin 4 → Nat) a + S1x16x128x256.size a ≤ S1x64x128x256.size a
  inb_S64x128x64_S16x128x64_16_0_0 : ∀ a, (![16, 0, 0] : Fin 3 → Nat) a + S16x128x64.size a ≤ S64x128x64.size a
  inb_S64x128x256_S16x128x256_16_0_0 : ∀ a, (![16, 0, 0] : Fin 3 → Nat) a + S16x128x256.size a ≤ S64x128x256.size a
  packedbf16_S64x128x256_S16x128x256_16_0_0 : (Rect.unit (s := S64x128x256) ![16, 0, 0] S16x128x256.size inb_S64x128x256_S16x128x256_16_0_0).PackedRows (EltTy.packing .bf16)
  inb_S1x64x128x256_S1x16x128x256_0_32_0_0 : ∀ a, (![0, 32, 0, 0] : Fin 4 → Nat) a + S1x16x128x256.size a ≤ S1x64x128x256.size a
  inb_S64x128x64_S16x128x64_32_0_0 : ∀ a, (![32, 0, 0] : Fin 3 → Nat) a + S16x128x64.size a ≤ S64x128x64.size a
  inb_S64x128x256_S16x128x256_32_0_0 : ∀ a, (![32, 0, 0] : Fin 3 → Nat) a + S16x128x256.size a ≤ S64x128x256.size a
  packedbf16_S64x128x256_S16x128x256_32_0_0 : (Rect.unit (s := S64x128x256) ![32, 0, 0] S16x128x256.size inb_S64x128x256_S16x128x256_32_0_0).PackedRows (EltTy.packing .bf16)
  inb_S1x64x128x256_S1x16x128x256_0_48_0_0 : ∀ a, (![0, 48, 0, 0] : Fin 4 → Nat) a + S1x16x128x256.size a ≤ S1x64x128x256.size a
  inb_S64x128x64_S16x128x64_48_0_0 : ∀ a, (![48, 0, 0] : Fin 3 → Nat) a + S16x128x64.size a ≤ S64x128x64.size a
  inb_S64x128x256_S16x128x256_48_0_0 : ∀ a, (![48, 0, 0] : Fin 3 → Nat) a + S16x128x256.size a ≤ S64x128x256.size a
  packedbf16_S64x128x256_S16x128x256_48_0_0 : (Rect.unit (s := S64x128x256) ![48, 0, 0] S16x128x256.size inb_S64x128x256_S16x128x256_48_0_0).PackedRows (EltTy.packing .bf16)
  inb_S64x128x64_S64x128x64_0_0_0 : ∀ a, (![0, 0, 0] : Fin 3 → Nat) a + S64x128x64.size a ≤ S64x128x64.size a
  h_S64x128x64 : 0 < S64x128x64.numel
  inb_S64x128x256_S64x128x256_0_0_0 : ∀ a, (![0, 0, 0] : Fin 3 → Nat) a + S64x128x256.size a ≤ S64x128x256.size a
  h_S64x128x256 : 0 < S64x128x256.numel
  inb_S1x64x128x256_S1x64x16x256_0_0_0_0 : ∀ a, (![0, 0, 0, 0] : Fin 4 → Nat) a + S1x64x16x256.size a ≤ S1x64x128x256.size a
  h_S1x64x16x256 : 0 < S1x64x16x256.numel
  shapeCasts_S1x64x16x256_S64x16x256 : S1x64x16x256.ShapeCasts S64x16x256
  shapeCasts_S64x16x256_S1024x256 : S64x16x256.ShapeCasts S1024x256
  shapeCasts_S1024x64_S64x16x64 : S1024x64.ShapeCasts S64x16x64
  reduces_S64x16x128_S16x128 : S64x16x128.Reduces [0] S16x128
  shapeCasts_S16x128_S1x16x128 : S16x128.ShapeCasts S1x16x128
  broadcasts_S1x16x128_S64x16x128 : S1x16x128.Broadcasts S64x16x128
  shapeCasts_S64x16x256_S1x64x16x256 : S64x16x256.ShapeCasts S1x64x16x256
  inb_S1x64x128x256_S1x64x16x256_0_0_16_0 : ∀ a, (![0, 0, 16, 0] : Fin 4 → Nat) a + S1x64x16x256.size a ≤ S1x64x128x256.size a
  inb_S1x64x128x256_S1x64x16x256_0_0_32_0 : ∀ a, (![0, 0, 32, 0] : Fin 4 → Nat) a + S1x64x16x256.size a ≤ S1x64x128x256.size a
  inb_S1x64x128x256_S1x64x16x256_0_0_48_0 : ∀ a, (![0, 0, 48, 0] : Fin 4 → Nat) a + S1x64x16x256.size a ≤ S1x64x128x256.size a
  inb_S1x64x128x256_S1x64x16x256_0_0_64_0 : ∀ a, (![0, 0, 64, 0] : Fin 4 → Nat) a + S1x64x16x256.size a ≤ S1x64x128x256.size a
  inb_S1x64x128x256_S1x64x16x256_0_0_80_0 : ∀ a, (![0, 0, 80, 0] : Fin 4 → Nat) a + S1x64x16x256.size a ≤ S1x64x128x256.size a
  inb_S1x64x128x256_S1x64x16x256_0_0_96_0 : ∀ a, (![0, 0, 96, 0] : Fin 4 → Nat) a + S1x64x16x256.size a ≤ S1x64x128x256.size a
  inb_S1x64x128x256_S1x64x16x256_0_0_112_0 : ∀ a, (![0, 0, 112, 0] : Fin 4 → Nat) a + S1x64x16x256.size a ≤ S1x64x128x256.size a
  dot_S2048x256_S256x64_S2048x64_1_0_0_1_n_n_wf : DotDims.WF S2048x256 S256x64 S2048x64 [1] [0] [0] [1] [] []
  dot_S2048x256_S256x256_S2048x256_1_0_0_1_n_n_wf : DotDims.WF S2048x256 S256x256 S2048x256 [1] [0] [0] [1] [] []
  dot_S1024x256_S256x64_S1024x64_1_0_0_1_n_n_wf : DotDims.WF S1024x256 S256x64 S1024x64 [1] [0] [0] [1] [] []
  dot_S64x16x64_S64x128x64_S64x16x128_2_2_1_1_0_0_wf : DotDims.WF S64x16x64 S64x128x64 S64x16x128 [2] [2] [1] [1] [0] [0]
  dot_S64x16x128_S64x128x256_S64x16x256_2_1_1_2_0_0_wf : DotDims.WF S64x16x128 S64x128x256 S64x16x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128x256.size a ≤ S8x64x128x256.size a
  hwx0_0 : ∀ i : grid0.Coords, EltTy.bits .f32 = 32 ∨ (Rect.block (s := S8x64x128x256) S1x64x128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .bf16 = 32 ∨ (Rect.block (s := S256x64) S256x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .bf16 = 32 ∨ (Rect.block (s := S256x64) S256x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x128x256.size a ≤ S8x64x128x256.size a
  hwx0_4 : ∀ i : grid0.Coords, EltTy.bits .f32 = 32 ∨ (Rect.block (s := S8x64x128x256) S1x64x128x256.size (cc0_transform_4 i) (hinb0_4 i)).WholeWords (EltTy.packing .f32)

variable [Facts₀]

def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S64x16x64_S64x128x64_S64x16x128_2_2_1_1_0_0 : DotDims S64x16x64 S64x128x64 S64x16x128 where
  lhsContracting := [2]
  rhsContracting := [2]
  lhsNonContracting := [1]
  rhsNonContracting := [1]
  lhsBatch := [0]
  rhsBatch := [0]
  wf := dot_S64x16x64_S64x128x64_S64x16x128_2_2_1_1_0_0_wf
def dot_S64x16x128_S64x128x256_S64x16x256_2_1_1_2_0_0 : DotDims S64x16x128 S64x128x256 S64x16x256 where
  lhsContracting := [2]
  rhsContracting := [1]
  lhsNonContracting := [1]
  rhsNonContracting := [2]
  lhsBatch := [0]
  rhsBatch := [0]
  wf := dot_S64x16x128_S64x128x256_S64x16x256_2_1_1_2_0_0_wf

abbrev win0_0 : Pipeline.Window sig grid0 :=
  Pipeline.Window.ofSpec (Memref.whole main_arg0) S1x64x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x64x128x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x64x128x256 : Shape := ⟨4, ![8, 64, 128, 256]⟩
abbrev S256x64 : Shape := ⟨2, ![256, 64]⟩
abbrev S256x256 : Shape := ⟨2, ![256, 256]⟩
abbrev S8x64x128x64 : Shape := ⟨4, ![8, 64, 128, 64]⟩
abbrev S_ : Shape := ⟨0, ![]⟩
abbrev S8x64x128x128 : Shape := ⟨4, ![8, 64, 128, 128]⟩
abbrev S8x128x128 : Shape := ⟨3, ![8, 128, 128]⟩
abbrev S8x1x128x128 : Shape := ⟨4, ![8, 1, 128, 128]⟩

abbrev nBuf : Space → Nat
  | .hbm => 27
  | .vmem => 0
  | .smem => 0
  | _ => 0

abbrev bufTy : (tb : Table) → Fin (tcTables nBuf tb) → BufTy
  | .hbm, ⟨0, _⟩ => ⟨S8x64x128x256, .f32⟩
  | .hbm, ⟨1, _⟩ => ⟨S256x64, .f32⟩
  | .hbm, ⟨2, _⟩ => ⟨S256x64, .f32⟩
  | .hbm, ⟨3, _⟩ => ⟨S256x256, .f32⟩
  | .hbm, ⟨4, _⟩ => ⟨S8x64x128x64, .f32⟩
  | .hbm, ⟨5, _⟩ => ⟨S8x64x128x64, .f32⟩
  | .hbm, ⟨6, _⟩ => ⟨S8x64x128x256, .f32⟩
  | .hbm, ⟨7, _⟩ => ⟨S_, .f32⟩
  | .hbm, ⟨8, _⟩ => ⟨S_, .f32⟩
  | .hbm, ⟨9, _⟩ => ⟨S8x64x128x128, .f32⟩
  | .hbm, ⟨10, _⟩ => ⟨S8x64x128x128, .f32⟩
  | .hbm, ⟨11, _⟩ => ⟨S8x64x128x128, .f32⟩
  | .hbm, ⟨12, _⟩ => ⟨S_, .f32⟩
  | .hbm, ⟨13, _⟩ => ⟨S8x128x128, .f32⟩
  | .hbm, ⟨14, _⟩ => ⟨S_, .f32⟩
  | .hbm, ⟨15, _⟩ => ⟨S8x128x128, .f32⟩
  | .hbm, ⟨16, _⟩ => ⟨S8x128x128, .f32⟩
  | .hbm, ⟨17, _⟩ => ⟨S8x1x128x128, .f32⟩
  | .hbm, ⟨18, _⟩ => ⟨S8x64x128x128, .f32⟩
  | .hbm, ⟨19, _⟩ => ⟨S8x64x128x128, .f32⟩
  | .hbm, ⟨20, _⟩ => ⟨S8x64x128x128, .f32⟩
  | .hbm, ⟨21, _⟩ => ⟨S_, .f32⟩
  | .hbm, ⟨22, _⟩ => ⟨S8x128x128, .f32⟩
  | .hbm, ⟨23, _⟩ => ⟨S8x1x128x128, .f32⟩
  | .hbm, ⟨24, _⟩ => ⟨S8x64x128x128, .f32⟩
  | .hbm, ⟨25, _⟩ => ⟨S8x64x128x128, .f32⟩
  | .hbm, ⟨26, _⟩ => ⟨S8x64x128x256, .f32⟩
  | _, _ => ⟨S8x64x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S8x64x128x128 : S_.BroadcastsInDim S8x64x128x128 (![] : Fin 0 → Fin S8x64x128x128.rank)
  reducesTo_S8x64x128x128_S8x128x128_d1 : S8x64x128x128.ReducesTo [1] S8x128x128
  h_S_ : 0 < S_.numel
  bcast_S_S8x128x128 : S_.BroadcastsInDim S8x128x128 (![] : Fin 0 → Fin S8x128x128.rank)
  bcast_S8x128x128_S8x1x128x128_0_2_3 : S8x128x128.BroadcastsInDim S8x1x128x128 (![0, 2, 3] : Fin 3 → Fin S8x1x128x128.rank)
  bcast_S8x1x128x128_S8x64x128x128_0_1_2_3 : S8x1x128x128.BroadcastsInDim S8x64x128x128 (![0, 1, 2, 3] : Fin 4 → Fin S8x64x128x128.rank)
  dot_S8x64x128x256_S256x64_S8x64x128x64_3_0_012_1_n_n_wf : DotDims.WF S8x64x128x256 S256x64 S8x64x128x64 [3] [0] [0, 1, 2] [1] [] []
  dot_S8x64x128x256_S256x256_S8x64x128x256_3_0_012_1_n_n_wf : DotDims.WF S8x64x128x256 S256x256 S8x64x128x256 [3] [0] [0, 1, 2] [1] [] []
  dot_S8x64x128x64_S8x64x128x64_S8x64x128x128_3_3_2_2_01_01_wf : DotDims.WF S8x64x128x64 S8x64x128x64 S8x64x128x128 [3] [3] [2] [2] [0, 1] [0, 1]
  dot_S8x64x128x128_S8x64x128x256_S8x64x128x256_3_2_2_3_01_01_wf : DotDims.WF S8x64x128x128 S8x64x128x256 S8x64x128x256 [3] [2] [2] [3] [0, 1] [0, 1]

variable [Facts₀]

def dot_S8x64x128x256_S256x64_S8x64x128x64_3_0_012_1_n_n : DotDims S8x64x128x256 S256x64 S8x64x128x64 where
  lhsContracting := [3]
  rhsContracting := [0]
  lhsNonContracting := [0, 1, 2]
  rhsNonContracting := [1]
  lhsBatch := []
  rhsBatch := []
  wf := dot_S8x64x128x256_S256x64_S8x64x128x64_3_0_012_1_n_n_wf
def dot_S8x64x128x256_S256x256_S8x64x128x256_3_0_012_1_n_n : DotDims S8x64x128x256 S256x256 S8x64x128x256 where
  lhsContracting := [3]
  rhsContracting := [0]
  lhsNonContracting := [0, 1, 2]
  rhsNonContracting := [1]
  lhsBatch := []
  rhsBatch := []
  wf := dot_S8x64x128x256_S256x256_S8x64x128x256_3_0_012_1_n_n_wf
def dot_S8x64x128x64_S8x64x128x64_S8x64x128x128_3_3_2_2_01_01 : DotDims S8x64x128x64 S8x64x128x64 S8x64x128x128 where
  lhsContracting := [3]
  rhsContracting := [3]
  lhsNonContracting := [2]
  rhsNonContracting := [2]
  lhsBatch := [0, 1]
  rhsBatch := [0, 1]
  wf := dot_S8x64x128x64_S8x64x128x64_S8x64x128x128_3_3_2_2_01_01_wf
def dot_S8x64x128x128_S8x64x128x256_S8x64x128x256_3_2_2_3_01_01 : DotDims S8x64x128x128 S8x64x128x256 S8x64x128x256 where
  lhsContracting := [3]
  rhsContracting := [2]
  lhsNonContracting := [2]
  rhsNonContracting := [3]
  lhsBatch := [0, 1]
  rhsBatch := [0, 1]
  wf := dot_S8x64x128x128_S8x64x128x256_S8x64x128x256_3_2_2_3_01_01_wf

class Facts : Prop extends Facts₀ where

variable [Facts]
-- ==== Proof.LibBatchRows.lean ====
/-
  LAYOUT OPERATIONS ON A BATCH OF ROW TABLES, read at an index.

  A batch of `A` tables of `B` rows is kept either as a three-axis array `[A, B, C]` or flattened to `[A·B, C]`, row `n` of
  table `p` at flat row `p·B + n` (`row`).  Read here at an index given by its coordinates: the casts between the two forms
  (also with a trailing unit axis in place of `C`), the broadcasts that repeat a per-table row, a shared row or a per-row
  number across a table, a sum over the rows of each table or over the columns of each flat row, and two slices of a table
  (its first row's leading columns; one column of every row).  All extents are parameters; the flat row count `R` comes with
  the equation `R = A * B`.  No algebra of the extended reals is used.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.BatchRows

open Idealize.ShloMosaic Idealize.ShloMosaic.ValueIdx

variable {α : Type}

/-- Row `n` of table `p` in the flattened array. -/
def row {A B R : ℕ} (hR : R = A * B) (p : Fin A) (n : Fin B) : Fin R :=
  ⟨p.val * B + n.val, by
    subst hR
    exact Nat.lt_of_lt_of_le (Nat.add_lt_add_left n.isLt _) (by rw [← Nat.succ_mul]; exact Nat.mul_le_mul_right _ p.isLt)⟩

theorem row_val {A B R : ℕ} (hR : R = A * B) (p : Fin A) (n : Fin B) : (row hR p n).val = p.val * B + n.val := rfl

/-- Every flat row is some table's row. -/
theorem exists_row {A B R : ℕ} (hR : R = A * B) (hB : 0 < B) (r : Fin R) : ∃ (p : Fin A) (n : Fin B), r = row hR p n := by
  subst hR
  have hr : r.val < B * A := lt_of_lt_of_eq r.isLt (Nat.mul_comm A B)
  refine ⟨⟨r.val / B, Nat.div_lt_of_lt_mul hr⟩, ⟨r.val % B, Nat.mod_lt _ hB⟩, Fin.ext ?_⟩
  show r.val = r.val / B * B + r.val % B
  exact (Nat.div_add_mod' r.val B).symm

/-! ## Casts between the two forms -/

theorem cast_abc_rc {A B C R : ℕ} (hR : R = A * B) (x : (⟨3, ![A, B, C]⟩ : Shape).Idx → α)
    (h : (⟨3, ![A, B, C]⟩ : Shape).ShapeCasts ⟨2, ![R, C]⟩) (p : Fin A) (n : Fin B) (c : Fin C) :
    shapeCast ⟨2, ![R, C]⟩ x h (ix2 (row hR p n) c) = x (ix3 p n c) :=
  shapeCast_apply x h _ _ (by rw [Shape.rowMajor_val_three, Shape.rowMajor_val_two]; rfl)

theorem cast_rc_abc {A B C R : ℕ} (hR : R = A * B) (x : (⟨2, ![R, C]⟩ : Shape).Idx → α)
    (h : (⟨2, ![R, C]⟩ : Shape).ShapeCasts ⟨3, ![A, B, C]⟩) (p : Fin A) (n : Fin B) (c : Fin C) :
    shapeCast ⟨3, ![A, B, C]⟩ x h (ix3 p n c) = x (ix2 (row hR p n) c) :=
  shapeCast_apply x h _ _ (by rw [Shape.rowMajor_val_three, Shape.rowMajor_val_two]; rfl)

theorem cast_ab_r1 {A B R : ℕ} (hR : R = A * B) (x : (⟨2, ![A, B]⟩ : Shape).Idx → α)
    (h : (⟨2, ![A, B]⟩ : Shape).ShapeCasts ⟨2, ![R, 1]⟩) (p : Fin A) (n : Fin B) (u : Fin 1) :
    shapeCast ⟨2, ![R, 1]⟩ x h (ix2 (row hR p n) u) = x (ix2 p n) :=
  shapeCast_apply x h _ _ (by
    have hu : u.val = 0 := by omega
    rw [Shape.rowMajor_val_two, Shape.rowMajor_val_two]
    show p.val * B + n.val = (p.val * B + n.val) * 1 + u.val
    omega)

theorem cast_r1_ab {A B R : ℕ} (hR : R = A * B) (x : (⟨2, ![R, 1]⟩ : Shape).Idx → α)
    (h : (⟨2, ![R, 1]⟩ : Shape).ShapeCasts ⟨2, ![A, B]⟩) (p : Fin A) (n : Fin B) :
    shapeCast ⟨2, ![A, B]⟩ x h (ix2 p n) = x (ix2 (row hR p n) (0 : Fin 1)) :=
  shapeCast_apply x h _ _ (by
    rw [Shape.rowMajor_val_two, Shape.rowMajor_val_two]
    show (p.val * B + n.val) * 1 + 0 = p.val * B + n.val
    omega)

/-! ## Repeating a row or a number across a table -/

/-- A per-table row `[A, C]` cast to `[A, 1, C]` and broadcast over the table's rows. -/
theorem bcast_ac_abc {A B C : ℕ} (x : (⟨2, ![A, C]⟩ : Shape).Idx → α)
    (hc : (⟨2, ![A, C]⟩ : Shape).ShapeCasts ⟨3, ![A, 1, C]⟩) (hb : (⟨3, ![A, 1, C]⟩ : Shape).Broadcasts ⟨3, ![A, B, C]⟩)
    (p : Fin A) (n : Fin B) (c : Fin C) :
    broadcastTo ⟨3, ![A, B, C]⟩ (shapeCast ⟨3, ![A, 1, C]⟩ x hc) hb (ix3 p n c) = x (ix2 p c) := by
  have e1 : broadcastTo ⟨3, ![A, B, C]⟩ (shapeCast ⟨3, ![A, 1, C]⟩ x hc) hb (ix3 p n c)
      = shapeCast ⟨3, ![A, 1, C]⟩ x hc (ix3 p (0 : Fin 1) c) :=
    broadcastTo_apply _ hb (ix3 p n c) (ix3 p (0 : Fin 1) c) fun ax => by
      match ax with
      | ⟨0, _⟩ =>
        show p.val = if A = 1 then 0 else p.val
        split
        · have := p.isLt; omega
        · rfl
      | ⟨1, _⟩ => rfl
      | ⟨2, _⟩ =>
        show c.val = if C = 1 then 0 else c.val
        split
        · have := c.isLt; omega
        · rfl
  rw [e1]
  exact shapeCast_apply x hc _ _ (by
    rw [Shape.rowMajor_val_three, Shape.rowMajor_val_two]
    show p.val * C + c.val = (p.val * 1 + 0) * C + c.val
    rw [Nat.mul_one, Nat.add_zero])

/-- A shared row `[1, C]` cast to `[1, 1, C]` and broadcast over every table's rows. -/
theorem bcast_1c_abc {A B C : ℕ} (x : (⟨2, ![1, C]⟩ : Shape).Idx → α)
    (hc : (⟨2, ![1, C]⟩ : Shape).ShapeCasts ⟨3, ![1, 1, C]⟩) (hb : (⟨3, ![1, 1, C]⟩ : Shape).Broadcasts ⟨3, ![A, B, C]⟩)
    (p : Fin A) (n : Fin B) (c : Fin C) :
    broadcastTo ⟨3, ![A, B, C]⟩ (shapeCast ⟨3, ![1, 1, C]⟩ x hc) hb (ix3 p n c) = x (ix2 (0 : Fin 1) c) := by
  have e1 : broadcastTo ⟨3, ![A, B, C]⟩ (shapeCast ⟨3, ![1, 1, C]⟩ x hc) hb (ix3 p n c)
      = shapeCast ⟨3, ![1, 1, C]⟩ x hc (ix3 (0 : Fin 1) (0 : Fin 1) c) :=
    broadcastTo_apply _ hb (ix3 p n c) (ix3 (0 : Fin 1) (0 : Fin 1) c) fun ax => by
      match ax with
      | ⟨0, _⟩ => rfl
      | ⟨1, _⟩ => rfl
      | ⟨2, _⟩ =>
        show c.val = if C = 1 then 0 else c.val
        split
        · have := c.isLt; omega
        · rfl
  rw [e1]
  exact shapeCast_apply x hc _ _ (by
    rw [Shape.rowMajor_val_three, Shape.rowMajor_val_two]
    show 0 * C + c.val = (0 * 1 + 0) * C + c.val
    omega)

/-- A per-row number `[A, B]` cast to `[A, B, 1]` and broadcast across the row's columns. -/
theorem bcast_ab_abc {A B C : ℕ} (x : (⟨2, ![A, B]⟩ : Shape).Idx → α)
    (hc : (⟨2, ![A, B]⟩ : Shape).ShapeCasts ⟨3, ![A, B, 1]⟩) (hb : (⟨3, ![A, B, 1]⟩ : Shape).Broadcasts ⟨3, ![A, B, C]⟩)
    (p : Fin A) (n : Fin B) (c : Fin C) :
    broadcastTo ⟨3, ![A, B, C]⟩ (shapeCast ⟨3, ![A, B, 1]⟩ x hc) hb (ix3 p n c) = x (ix2 p n) := by
  have e1 : broadcastTo ⟨3, ![A, B, C]⟩ (shapeCast ⟨3, ![A, B, 1]⟩ x hc) hb (ix3 p n c)
      = shapeCast ⟨3, ![A, B, 1]⟩ x hc (ix3 p n (0 : Fin 1)) :=
    broadcastTo_apply _ hb (ix3 p n c) (ix3 p n (0 : Fin 1)) fun ax => by
      match ax with
      | ⟨0, _⟩ =>
        show p.val = if A = 1 then 0 else p.val
        split
        · have := p.isLt; omega
        · rfl
      | ⟨1, _⟩ =>
        show n.val = if B = 1 then 0 else n.val
        split
        · have := n.isLt; omega
        · rfl
      | ⟨2, _⟩ => rfl
  rw [e1]
  exact shapeCast_apply x hc _ _ (by
    rw [Shape.rowMajor_val_three, Shape.rowMajor_val_two]
    show p.val * B + n.val = (p.val * B + n.val) * 1 + 0
    omega)

/-- A one-entry array `[1, 1]` broadcast down a column `[R, 1]`. -/
theorem bcast_11_r1 {R : ℕ} (x : (⟨2, ![1, 1]⟩ : Shape).Idx → α) (hb : (⟨2, ![1, 1]⟩ : Shape).Broadcasts ⟨2, ![R, 1]⟩)
    (r : Fin R) (u : Fin 1) : broadcastTo ⟨2, ![R, 1]⟩ x hb (ix2 r u) = x (ix2 (0 : Fin 1) (0 : Fin 1)) :=
  broadcastTo_apply x hb (ix2 r u) (ix2 (0 : Fin 1) (0 : Fin 1)) fun ax => by
    match ax with
    | ⟨0, _⟩ => rfl
    | ⟨1, _⟩ => rfl

/-! ## Sums -/

/-- The sum over the rows of each table (axis 1 of `[A, B, C]`), from the zero word. -/
theorem sum_rows {A B C : ℕ} {φ : FTy} (x : FVec Ideal ⟨3, ![A, B, C]⟩ φ) (acc : BitVec φ.bits)
    (h : (⟨3, ![A, B, C]⟩ : Shape).Reduces [(1 : Fin 3)] ⟨2, ![A, C]⟩) (hφ : FKind.Formats φ)
    (hacc : acc = FKind.add.neutral φ hφ) (p : Fin A) (c : Fin C) :
    multiReduction .add [(1 : Fin 3)] ⟨2, ![A, C]⟩ x acc h hφ hacc (ix2 p c) = ∑ n : Fin B, x (ix3 p n c) := by
  refine (Ideal.multiReduction_add_single x acc h hφ hacc (ix2 p c)).trans ?_
  refine Finset.sum_congr rfl fun n _ => congrArg x ?_
  funext a
  apply Fin.ext
  match a with
  | ⟨0, _⟩ => rfl
  | ⟨1, _⟩ => rfl
  | ⟨2, _⟩ => rfl

/-- The sum over the columns of each flat row (axis 1 of `[R, E]`), from the zero word. -/
theorem sum_cols {R E : ℕ} {φ : FTy} (x : FVec Ideal ⟨2, ![R, E]⟩ φ) (acc : BitVec φ.bits)
    (h : (⟨2, ![R, E]⟩ : Shape).Reduces [(1 : Fin 2)] ⟨1, ![R]⟩) (hφ : FKind.Formats φ)
    (hacc : acc = FKind.add.neutral φ hφ) (r : Fin R) :
    multiReduction .add [(1 : Fin 2)] ⟨1, ![R]⟩ x acc h hφ hacc (ix1 r) = ∑ e : Fin E, x (ix2 r e) := by
  refine (Ideal.multiReduction_add_single x acc h hφ hacc (ix1 r)).trans ?_
  refine Finset.sum_congr rfl fun e _ => congrArg x ?_
  funext a
  apply Fin.ext
  match a with
  | ⟨0, _⟩ => rfl
  | ⟨1, _⟩ => rfl

/-! ## Two slices of a table -/

/-- The leading `M` columns of row 0 of every table, as `[A, M]`. -/
theorem head_row {A B C M : ℕ} (hM : M ≤ C) (hB : 0 < B) (x : (⟨3, ![A, B, C]⟩ : Shape).Idx → α)
    (hs : (⟨3, ![A, B, C]⟩ : Shape).Slices ![0, 0, 0] ⟨3, ![A, 1, M]⟩)
    (hc : (⟨3, ![A, 1, M]⟩ : Shape).ShapeCasts ⟨2, ![A, M]⟩) (p : Fin A) (i : Fin M) :
    shapeCast ⟨2, ![A, M]⟩ (extractStridedSlice ⟨3, ![A, 1, M]⟩ ![0, 0, 0] x hs) hc (ix2 p i)
      = x (ix3 p ⟨0, hB⟩ ⟨i.val, by have := i.isLt; omega⟩) := by
  have e1 : shapeCast ⟨2, ![A, M]⟩ (extractStridedSlice ⟨3, ![A, 1, M]⟩ ![0, 0, 0] x hs) hc (ix2 p i)
      = extractStridedSlice ⟨3, ![A, 1, M]⟩ ![0, 0, 0] x hs (ix3 p (0 : Fin 1) i) :=
    shapeCast_apply _ hc _ _ (by
      rw [Shape.rowMajor_val_three, Shape.rowMajor_val_two]
      show (p.val * 1 + 0) * M + i.val = p.val * M + i.val
      rw [Nat.mul_one, Nat.add_zero])
  rw [e1]
  refine extractStridedSlice_apply _ x hs _ _ fun a => ?_
  match a with
  | ⟨0, _⟩ => show p.val = 0 + p.val; omega
  | ⟨1, _⟩ => show 0 = 0 + 0; rfl
  | ⟨2, _⟩ => show i.val = 0 + i.val; omega

/-- Column `o` of every row of every table, as `[A, B]`. -/
theorem column {A B C : ℕ} (o : ℕ) (ho : o < C) (x : (⟨3, ![A, B, C]⟩ : Shape).Idx → α)
    (hs : (⟨3, ![A, B, C]⟩ : Shape).Slices ![0, 0, o] ⟨3, ![A, B, 1]⟩)
    (hc : (⟨3, ![A, B, 1]⟩ : Shape).ShapeCasts ⟨2, ![A, B]⟩) (p : Fin A) (n : Fin B) :
    shapeCast ⟨2, ![A, B]⟩ (extractStridedSlice ⟨3, ![A, B, 1]⟩ ![0, 0, o] x hs) hc (ix2 p n)
      = x (ix3 p n ⟨o, ho⟩) := by
  have e1 : shapeCast ⟨2, ![A, B]⟩ (extractStridedSlice ⟨3, ![A, B, 1]⟩ ![0, 0, o] x hs) hc (ix2 p n)
      = extractStridedSlice ⟨3, ![A, B, 1]⟩ ![0, 0, o] x hs (ix3 p n (0 : Fin 1)) :=
    shapeCast_apply _ hc _ _ (by
      rw [Shape.rowMajor_val_three, Shape.rowMajor_val_two]
      show (p.val * B + n.val) * 1 + 0 = p.val * B + n.val
      omega)
  rw [e1]
  refine extractStridedSlice_apply _ x hs _ _ fun a => ?_
  match a with
  | ⟨0, _⟩ => show p.val = 0 + p.val; omega
  | ⟨1, _⟩ => show n.val = 0 + n.val; omega
  | ⟨2, _⟩ => show o = o + 0; rfl

end Cert.BatchRows

end
-- ==== Proof.LibLayout3.lean ====
/-
  Layout operations and one-axis reductions read at an index written by coordinates (a general lemma file: it imports
  only the library and is generic in the extents).

  A tile of the kernel works with three index sets: (row, column) pairs, (row, column, coordinate) triples for the
  distances, and (row, positive, negative) triples for the mining step. The programs move between them by inserting a
  unit axis and broadcasting along it, and come back by reducing over the last axis. Each lemma here says which entry of
  the operand one entry of the result reads, with every index spelt by its coordinates.
-/
import Idealize.ShloMosaic.Lib.ValueLayout
import Idealize.ShloMosaic.PureOps.Ideal.Laws

open scoped BigOperators

namespace Cert.LibLayout3

open Idealize.ShloMosaic Idealize.ShloMosaic.ValueIdx

section Casts
variable {α : Type}

/-- An [a, c] array viewed as [a, 1, c] reads, at (r, u, d), the operand at (r, d). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (d : Fin c) :
    shapeCast ⟨3, ![a, 1, c]⟩ x h (ix3 r u d) = x (ix2 r d) :=
  shapeCast_apply x h _ _ (by
    have hu : u.val = 0 := by omega
    rw [Shape.rowMajor_val_three, Shape.rowMajor_val_two]
    show r.val * c + d.val = (r.val * 1 + u.val) * c + d.val
    rw [hu, Nat.mul_one, Nat.add_zero])

/-- An [a, b] array viewed as [a, b, 1] reads, at (r, j, u), the operand at (r, j). -/
theorem shapeCast_ab_ab1_apply {a b : ℕ} (x : (⟨2, ![a, b]⟩ : Shape).Idx → α)
    (h : (⟨2, ![a, b]⟩ : Shape).ShapeCasts ⟨3, ![a, b, 1]⟩) (r : Fin a) (j : Fin b) (u : Fin 1) :
    shapeCast ⟨3, ![a, b, 1]⟩ x h (ix3 r j u) = x (ix2 r j) :=
  shapeCast_apply x h _ _ (by
    have hu : u.val = 0 := by omega
    rw [Shape.rowMajor_val_three, Shape.rowMajor_val_two]
    show r.val * b + j.val = (r.val * b + j.val) * 1 + u.val
    rw [hu, Nat.mul_one, Nat.add_zero])

/-- A vector [a] viewed as the column [a, 1] reads, at (r, u), the operand at r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end Casts

section Broadcasts
variable {α : Type}

/-- A column [a, 1] broadcast to [a, b] reads, at (r, j), the column at r. -/
theorem broadcastTo_a1_ab_apply {a b : ℕ} (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- An [a, 1, c] array broadcast along its middle axis to [a, b, c] reads, at (r, j, d), the operand at (r, 0, d). -/
theorem broadcastTo_a1c_abc_apply {a b c : ℕ} (v : (⟨3, ![a, 1, c]⟩ : Shape).Idx → α)
    (h : (⟨3, ![a, 1, c]⟩ : Shape).Broadcasts ⟨3, ![a, b, c]⟩) (r : Fin a) (j : Fin b) (d : Fin c) :
    broadcastTo ⟨3, ![a, b, c]⟩ v h (ix3 r j d) = v (ix3 r (0 : Fin 1) d) := by
  refine broadcastTo_apply v h (ix3 r j d) (ix3 r (0 : Fin 1) d) fun ax => ?_
  match ax with
  | ⟨0, _⟩ =>
    show r.val = if a = 1 then 0 else r.val
    split
    · have := r.isLt; omega
    · rfl
  | ⟨1, _⟩ => rfl
  | ⟨2, _⟩ =>
    show d.val = if c = 1 then 0 else d.val
    split
    · have := d.isLt; omega
    · rfl

/-- A [1, b, c] array broadcast along its first axis to [a, b, c] reads, at (r, j, d), the operand at (0, j, d). -/
theorem broadcastTo_1bc_abc_apply {a b c : ℕ} (v : (⟨3, ![1, b, c]⟩ : Shape).Idx → α)
    (h : (⟨3, ![1, b, c]⟩ : Shape).Broadcasts ⟨3, ![a, b, c]⟩) (r : Fin a) (j : Fin b) (d : Fin c) :
    broadcastTo ⟨3, ![a, b, c]⟩ v h (ix3 r j d) = v (ix3 (0 : Fin 1) j d) := by
  refine broadcastTo_apply v h (ix3 r j d) (ix3 (0 : Fin 1) j d) fun ax => ?_
  match ax with
  | ⟨0, _⟩ => rfl
  | ⟨1, _⟩ =>
    show j.val = if b = 1 then 0 else j.val
    split
    · have := j.isLt; omega
    · rfl
  | ⟨2, _⟩ =>
    show d.val = if c = 1 then 0 else d.val
    split
    · have := d.isLt; omega
    · rfl

/-- An [a, b, 1] array broadcast along its last axis to [a, b, c] reads, at (r, j, k), the operand at (r, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (r : Fin a) (j : Fin b) (k : Fin c) :
    broadcastTo ⟨3, ![a, b, c]⟩ v h (ix3 r j k) = v (ix3 r j (0 : Fin 1)) := by
  refine broadcastTo_apply v h (ix3 r j k) (ix3 r j (0 : Fin 1)) fun ax => ?_
  match ax with
  | ⟨0, _⟩ =>
    show r.val = if a = 1 then 0 else r.val
    split
    · have := r.isLt; omega
    · rfl
  | ⟨1, _⟩ =>
    show j.val = if b = 1 then 0 else j.val
    split
    · have := j.isLt; omega
    · rfl
  | ⟨2, _⟩ => rfl

end Broadcasts

/-! ## The index a one-axis reduction inserts, by coordinates -/

section Lift

/-- Over [a, b, c] reduced along its last axis, the index above (r, j) with coordinate d is (r, j, d). -/
theorem lift_abc_last {a b c : ℕ} (h : Shape.Reduces ⟨3, ![a, b, c]⟩ [2] ⟨2, ![a, b]⟩) (r : Fin a) (j : Fin b) (d : Fin c) :
    h.lift (ix2 r j) d = ix3 r j d := by
  funext x
  match x with
  | ⟨0, _⟩ => exact Fin.ext rfl
  | ⟨1, _⟩ => exact Fin.ext rfl
  | ⟨2, _⟩ => exact Fin.ext rfl

/-- Over [a, b] reduced along its columns, the index above r with coordinate j is (r, j). -/
theorem lift_ab_last {a b : ℕ} (h : Shape.Reduces ⟨2, ![a, b]⟩ [1] ⟨1, ![a]⟩) (r : Fin a) (j : Fin b) :
    h.lift (ix1 r) j = ix2 r j := by
  funext x
  match x with
  | ⟨0, _⟩ => exact Fin.ext rfl
  | ⟨1, _⟩ => exact Fin.ext rfl

/-- Over the column [a, 1] reduced along its rows, the index above u with coordinate r is (r, u). -/
theorem lift_a1_first {a : ℕ} (h : Shape.Reduces ⟨2, ![a, 1]⟩ [0] ⟨1, ![1]⟩) (u : Fin 1) (r : Fin a) :
    h.lift (ix1 u) r = ix2 r u := by
  funext x
  match x with
  | ⟨0, _⟩ => exact Fin.ext rfl
  | ⟨1, _⟩ => exact Fin.ext rfl

end Lift

/-! ## One-axis reductions over the extended reals

The sum of a lane is a plain finite sum; a maximum or a minimum is the fold of max or min over the lane's
coordinates, started from the value of the accumulator's word. The reduced axis is written as an element of a literal
Fin type (Fin 2 or Fin 3), the rank of the array being reduced. -/

section Reductions

/-- A minimum over one axis is the fold of min over that axis's coordinates, from the accumulator's value. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The sum over the last axis of an [a, b, c] array, at (r, j). -/
theorem sum_abc_last {a b c : ℕ} (src : FVec Ideal ⟨3, ![a, b, c]⟩ .f32)
    (h : Shape.Reduces ⟨3, ![a, b, c]⟩ [2] ⟨2, ![a, b]⟩) (hacc : (0x00000000#32 : BitVec 32) = 0x00000000#32)
    (r : Fin a) (j : Fin b) :
    multiReduction (s := ⟨3, ![a, b, c]⟩) .add ([2] : List (Fin 3)) ⟨2, ![a, b]⟩ src 0x00000000#32 h (.inl rfl) hacc (ix2 r j)
      = ∑ d : Fin c, src (ix3 r j d) :=
  (Ideal.multiReduction_add_single src 0x00000000#32 h (.inl rfl) hacc (ix2 r j)).trans
    (Finset.sum_congr rfl fun d _ => congrArg src (lift_abc_last h r j d))

/-- The sum over the columns of an [a, b] array, at r. -/
theorem sum_ab_last {a b : ℕ} (src : FVec Ideal ⟨2, ![a, b]⟩ .f32)
    (h : Shape.Reduces ⟨2, ![a, b]⟩ [1] ⟨1, ![a]⟩) (hacc : (0x00000000#32 : BitVec 32) = 0x00000000#32) (r : Fin a) :
    multiReduction (s := ⟨2, ![a, b]⟩) .add ([1] : List (Fin 2)) ⟨1, ![a]⟩ src 0x00000000#32 h (.inl rfl) hacc (ix1 r)
      = ∑ j : Fin b, src (ix2 r j) :=
  (Ideal.multiReduction_add_single src 0x00000000#32 h (.inl rfl) hacc (ix1 r)).trans
    (Finset.sum_congr rfl fun j _ => congrArg src (lift_ab_last h r j))

/-- The sum over the rows of a column [a, 1], at its one index. -/
theorem sum_a1_first {a : ℕ} (src : FVec Ideal ⟨2, ![a, 1]⟩ .f32)
    (h : Shape.Reduces ⟨2, ![a, 1]⟩ [0] ⟨1, ![1]⟩) (hacc : (0x00000000#32 : BitVec 32) = 0x00000000#32) (u : Fin 1) :
    multiReduction (s := ⟨2, ![a, 1]⟩) .add ([0] : List (Fin 2)) ⟨1, ![1]⟩ src 0x00000000#32 h (.inl rfl) hacc (ix1 u)
      = ∑ r : Fin a, src (ix2 r u) :=
  (Ideal.multiReduction_add_single src 0x00000000#32 h (.inl rfl) hacc (ix1 u)).trans
    (Finset.sum_congr rfl fun r _ => congrArg src (lift_a1_first h u r))

/-- The maximum over the columns of an [a, b] array, at r. -/
theorem max_ab_last {a b : ℕ} (src : FVec Ideal ⟨2, ![a, b]⟩ .f32)
    (h : Shape.Reduces ⟨2, ![a, b]⟩ [1] ⟨1, ![a]⟩) (hacc : (0xFF800000#32 : BitVec 32) = 0xFF800000#32) (r : Fin a) :
    multiReduction (s := ⟨2, ![a, b]⟩) .maximumf ([1] : List (Fin 2)) ⟨1, ![a]⟩ src 0xFF800000#32 h (.inl rfl) hacc (ix1 r)
      = (Finset.univ : Finset (Fin b)).fold max (Ideal.ofBits .f32 0xFF800000#32) (fun j => src (ix2 r j)) :=
  (Ideal.multiReduction_maximumf_single src 0xFF800000#32 h (.inl rfl) hacc (ix1 r)).trans
    (Finset.fold_congr fun j _ => congrArg src (lift_ab_last h r j))

/-- The minimum over the columns of an [a, b] array, at r. -/
theorem min_ab_last {a b : ℕ} (src : FVec Ideal ⟨2, ![a, b]⟩ .f32)
    (h : Shape.Reduces ⟨2, ![a, b]⟩ [1] ⟨1, ![a]⟩) (hacc : (0x7F800000#32 : BitVec 32) = 0x7F800000#32) (r : Fin a) :
    multiReduction (s := ⟨2, ![a, b]⟩) .minimumf ([1] : List (Fin 2)) ⟨1, ![a]⟩ src 0x7F800000#32 h (.inl rfl) hacc (ix1 r)
      = (Finset.univ : Finset (Fin b)).fold min (Ideal.ofBits .f32 0x7F800000#32) (fun j => src (ix2 r j)) :=
  (multiReduction_minimumf_single src 0x7F800000#32 h (.inl rfl) hacc (ix1 r)).trans
    (Finset.fold_congr fun j _ => congrArg src (lift_ab_last h r j))

/-- The minimum over the last axis of an [a, b, c] array, at (r, j). -/
theorem min_abc_last {a b c : ℕ} (src : FVec Ideal ⟨3, ![a, b, c]⟩ .f32)
    (h : Shape.Reduces ⟨3, ![a, b, c]⟩ [2] ⟨2, ![a, b]⟩) (hacc : (0x7F800000#32 : BitVec 32) = 0x7F800000#32)
    (r : Fin a) (j : Fin b) :
    multiReduction (s := ⟨3, ![a, b, c]⟩) .minimumf ([2] : List (Fin 3)) ⟨2, ![a, b]⟩ src 0x7F800000#32 h (.inl rfl) hacc (ix2 r j)
      = (Finset.univ : Finset (Fin c)).fold min (Ideal.ofBits .f32 0x7F800000#32) (fun k => src (ix3 r j k)) :=
  (multiReduction_minimumf_single src 0x7F800000#32 h (.inl rfl) hacc (ix2 r j)).trans
    (Finset.fold_congr fun k _ => congrArg src (lift_abc_last h r j k))

end Reductions

end Cert.LibLayout3
-- ==== Proof.AttnSpec.lean ====
/-
  The attention layer both programs compute, stated once over the extended reals, for ONE batch entry.

  For a batch entry x[t, n, p] (t < 64 time steps, n < 128 nodes, p < 256 features) and weights wq, wk [256, 64],
  wv [256, 256]:
      q[t,i,k] = ∑ p, x[t,i,p] · wq[p,k]      k[t,j,k] = ∑ p, x[t,j,p] · wk[p,k]      v[t,j,r] = ∑ p, x[t,j,p] · wv[p,r]
      s[t,i,j] = (∑ k, q[t,i,k] · k[t,j,k]) · c                       (c the scale 1/8)
      a[t,i,j] = e^(s[t,i,j] - M[i,j]) / ∑ u, e^(s[u,i,j] - M[i,j])    (M[i,j] the maximum of s[·,i,j] over the 64 TIME steps)
      out[t,i,r] = ∑ j, a[t,i,j] · v[t,j,r].
  The softmax runs down the time axis, not along a row of scores. Nothing here needs a finite input: the two programs
  perform the same operations in the same order on the same extended reals, and differ only in how they spell the
  scale (a product with 1/8 against a quotient by √64) and in a maximum against the fold's own starting value.
-/
import Idealize.ShloMosaic.PureOps.Ideal
import Idealize.ShloMosaic.PureOps.Ideal.Laws
import Idealize.ShloMosaic.Lib.ValueIdx

noncomputable section

open scoped BigOperators

namespace Cert.AttnSpec

open Idealize.ShloMosaic

/-! ## The constants the two programs spell -/

/-- The word 64.0 denotes the real 64. -/
theorem ofBits_64 : Ideal.ofBits .f32 0x42800000#32 = ((64 : ℝ) : EReal) := by
  simp [Ideal.ofBits, Ideal.ieee, -EReal.coe_mul]; norm_num

/-- The word 0.125 denotes the real 1/8. -/
theorem ofBits_eighth : Ideal.ofBits .f32 0x3E000000#32 = ((1 / 8 : ℝ) : EReal) := by
  simp [Ideal.ofBits, Ideal.ieee, -EReal.coe_mul]; norm_num

/-- The word 0.0 denotes 0. -/
theorem ofBits_zero : Ideal.ofBits .f32 0x00000000#32 = 0 := by
  simp [Ideal.ofBits, Ideal.ieee]

/-- √64 = 8 on the extended reals. -/
theorem sqrt_64 : Ideal.sqrt ((64 : ℝ) : EReal) = ((8 : ℝ) : EReal) := by
  show (if (64 : ℝ) < 0 then (⊥ : EReal) else ((Real.sqrt 64 : ℝ) : EReal)) = _
  rw [if_neg (by norm_num)]
  congr 1
  rw [show (64 : ℝ) = 8 ^ 2 by norm_num]
  exact Real.sqrt_sq (by norm_num)

/-- THE SCALE LAW: a quotient by √64 is the product with 1/8, on every extended real (the infinities too): the divisor
    is a nonzero real. -/
theorem scale_eq (s : EReal) :
    Ideal.div s (Ideal.sqrt (Ideal.ofBits .f32 0x42800000#32)) = s * Ideal.ofBits .f32 0x3E000000#32 := by
  rw [ofBits_64, sqrt_64, Ideal.div_coe (by norm_num : (8 : ℝ) ≠ 0), ofBits_eighth]

/-- A maximum of a fold of maxima against the fold's own starting value changes nothing. -/
theorem max_start_fold {ι : Type*} (S : Finset ι) (b : EReal) (f : ι → EReal) : max b (S.fold max b f) = S.fold max b f :=
  max_eq_right ((Finset.le_fold_max b).mpr (Or.inl le_rfl))

/-! ## The function -/

/-- The softmax weight of entry `t` of a family of 64 scores: e^(s t - M) over the sum of the e^(s u - M), `M` the fold
    of `max` over the family from the starting value `lo` (the word -∞ in both programs). -/
def soft (lo : EReal) (s : Fin 64 → EReal) (t : Fin 64) : EReal :=
  Ideal.div (Ideal.exp (s t - Finset.univ.fold max lo s)) (∑ u : Fin 64, Ideal.exp (s u - Finset.univ.fold max lo s))

/-- A row of a projection: ∑ p, x p · w p k. -/
def proj {n : ℕ} (x : Fin 256 → EReal) (w : Fin 256 → Fin n → EReal) (k : Fin n) : EReal := ∑ p : Fin 256, x p * w p k

/-- The scaled score of query node `i` against key node `j` at time `u`. -/
def score (c : EReal) (x : Fin 64 → Fin 128 → Fin 256 → EReal) (wq wk : Fin 256 → Fin 64 → EReal)
    (i j : Fin 128) (u : Fin 64) : EReal :=
  (∑ k : Fin 64, proj (x u i) wq k * proj (x u j) wk k) * c

/-- One batch entry's attention output at (t, i, r). -/
def attn (lo c : EReal) (x : Fin 64 → Fin 128 → Fin 256 → EReal) (wq wk : Fin 256 → Fin 64 → EReal)
    (wv : Fin 256 → Fin 256 → EReal) (t : Fin 64) (i : Fin 128) (r : Fin 256) : EReal :=
  ∑ j : Fin 128, soft lo (score c x wq wk i j) t * proj (x t j) wv r

/-- The whole layer: the result array [8, 64, 128, 256] as one function of the four argument arrays — batch entry `i 0`'s
    attention at (i 1, i 2, i 3), with the fold of maxima started at the word -∞ and the scores scaled by the word 1/8. -/
def whole (X : (⟨4, ![8, 64, 128, 256]⟩ : Shape).Idx → EReal) (Wq Wk : (⟨2, ![256, 64]⟩ : Shape).Idx → EReal)
    (Wv : (⟨2, ![256, 256]⟩ : Shape).Idx → EReal) : (⟨4, ![8, 64, 128, 256]⟩ : Shape).Idx → EReal :=
  fun i => attn (Ideal.ofBits .f32 0xFF800000#32) (Ideal.ofBits .f32 0x3E000000#32)
    (fun t n p => X (ValueIdx.ix4 (i 0) t n p)) (fun p k => Wq (ValueIdx.ix2 p k)) (fun p k => Wk (ValueIdx.ix2 p k))
    (fun p r => Wv (ValueIdx.ix2 p r)) (i 1) (i 2) (i 3)

end Cert.AttnSpec

end
-- ==== Proof.Stages.lean ====
/-
  The projections of the kernel's body read at an index, at the extended reals.

  The body flattens a chunk of rows to a matrix, multiplies by a weight matrix into a zero accumulator and folds the
  rows back. Read at an index each such step is the plain sum  ∑ p, x[row, p] · w[p, col]:  a change of float format is
  the identity, the flattening and its inverse name the same row, and a matrix product into zero is the sum of the
  products over the contracted axis.
-/
import proofs.«111920_j46179488366786_2_alg».proof.Proof.Gen.KernelIdeal.Skeleton
import proofs.«111920_j46179488366786_2_alg».proof.Proof.LibBatchRows
import proofs.«111920_j46179488366786_2_alg».proof.Proof.LibLayout3
import proofs.«111920_j46179488366786_2_alg».proof.Proof.AttnSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Stages

open Idealize.ShloMosaic Idealize.ShloMosaic.ValueIdx Cert.KernelIdeal Cert.KernelIdeal.Gen Cert.BatchRows

/-- A matrix product into the zero accumulator, contracting ONE axis of extent `n`, read at the output index `j`: the
    sum over `k < n` of the left operand at `L k` times the right at `R k`, once the caller has named the two operand
    indices the contraction index `k` selects. -/
theorem matmul_zero_read {sl sr so : Shape} {φ₁ φ₂ : FTy} (D : DotDims sl sr so) (prec : Option ContractPrecision) (n : ℕ)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hL : ∀ (q : D.contr.Idx) (k : Fin n), (q ⟨0, by omega⟩).val = k.val → D.lhsIdx j q = L k)
    (hR : ∀ (q : D.contr.Idx) (k : Fin n), (q ⟨0, by omega⟩).val = k.val → D.rhsIdx j q = R k) :
    matmul D prec lhs rhs (constant so .f32 0x00000000#32) j = ∑ k : Fin n, lhs (L k) * rhs (R k) := by
  simp only [matmul]
  rw [Ideal.matmul_constant_zero_apply, ← Equiv.sum_comp (ValueIdx.contrEquiv1 D n hr hs).symm]
  refine Finset.sum_congr rfl fun k _ => ?_
  have hk := ValueIdx.contrEquiv1_symm_val D n hr hs k
  rw [hL _ k hk, hR _ k hk]

/-! ## The operand indices of the body's five contractions -/

/-- An operand coordinate on a kept (non-contracted, non-batch) axis is the output's coordinate there. -/
local macro "kept_axis" : tactic => `(tactic| (rw [dif_neg, dif_pos] <;> first | rfl | decide))
/-- An operand coordinate on a batch axis is the output's coordinate there. -/
local macro "batch_axis" : tactic => `(tactic| (rw [dif_pos] <;> first | rfl | decide))

theorem dk_lhs (r : Fin 2048) (c : Fin 64) (q : (dot_S2048x256_S256x64_S2048x64_1_0_0_1_n_n).contr.Idx) (k : Fin 256) (h : (q ⟨0, by decide⟩).val = k.val) :
    (dot_S2048x256_S256x64_S2048x64_1_0_0_1_n_n).lhsIdx (ix2 r c) q = ix2 r k := by
  have e0 : ((dot_S2048x256_S256x64_S2048x64_1_0_0_1_n_n).lhsIdx (ix2 r c) q 0).val = r.val := by unfold DotDims.lhsIdx; kept_axis
  have e1 : ((dot_S2048x256_S256x64_S2048x64_1_0_0_1_n_n).lhsIdx (ix2 r c) q 1).val = k.val := ((dot_S2048x256_S256x64_S2048x64_1_0_0_1_n_n).lhsIdx_val_of_single rfl _ q).trans h
  funext a; apply Fin.ext
  match a with
  | ⟨0, _⟩ => exact e0
  | ⟨1, _⟩ => exact e1

theorem dk_rhs (r : Fin 2048) (c : Fin 64) (q : (dot_S2048x256_S256x64_S2048x64_1_0_0_1_n_n).contr.Idx) (k : Fin 256) (h : (q ⟨0, by decide⟩).val = k.val) :
    (dot_S2048x256_S256x64_S2048x64_1_0_0_1_n_n).rhsIdx (ix2 r c) q = ix2 k c := by
  have e0 : ((dot_S2048x256_S256x64_S2048x64_1_0_0_1_n_n).rhsIdx (ix2 r c) q 0).val = k.val := ((dot_S2048x256_S256x64_S2048x64_1_0_0_1_n_n).rhsIdx_val_of_single rfl _ q).trans h
  have e1 : ((dot_S2048x256_S256x64_S2048x64_1_0_0_1_n_n).rhsIdx (ix2 r c) q 1).val = c.val := by unfold DotDims.rhsIdx; kept_axis
  funext a; apply Fin.ext
  match a with
  | ⟨0, _⟩ => exact e0
  | ⟨1, _⟩ => exact e1

theorem dv_lhs (r : Fin 2048) (c : Fin 256) (q : (dot_S2048x256_S256x256_S2048x256_1_0_0_1_n_n).contr.Idx) (k : Fin 256) (h : (q ⟨0, by decide⟩).val = k.val) :
    (dot_S2048x256_S256x256_S2048x256_1_0_0_1_n_n).lhsIdx (ix2 r c) q = ix2 r k := by
  have e0 : ((dot_S2048x256_S256x256_S2048x256_1_0_0_1_n_n).lhsIdx (ix2 r c) q 0).val = r.val := by unfold DotDims.lhsIdx; kept_axis
  have e1 : ((dot_S2048x256_S256x256_S2048x256_1_0_0_1_n_n).lhsIdx (ix2 r c) q 1).val = k.val := ((dot_S2048x256_S256x256_S2048x256_1_0_0_1_n_n).lhsIdx_val_of_single rfl _ q).trans h
  funext a; apply Fin.ext
  match a with
  | ⟨0, _⟩ => exact e0
  | ⟨1, _⟩ => exact e1

theorem dv_rhs (r : Fin 2048) (c : Fin 256) (q : (dot_S2048x256_S256x256_S2048x256_1_0_0_1_n_n).contr.Idx) (k : Fin 256) (h : (q ⟨0, by decide⟩).val = k.val) :
    (dot_S2048x256_S256x256_S2048x256_1_0_0_1_n_n).rhsIdx (ix2 r c) q = ix2 k c := by
  have e0 : ((dot_S2048x256_S256x256_S2048x256_1_0_0_1_n_n).rhsIdx (ix2 r c) q 0).val = k.val := ((dot_S2048x256_S256x256_S2048x256_1_0_0_1_n_n).rhsIdx_val_of_single rfl _ q).trans h
  have e1 : ((dot_S2048x256_S256x256_S2048x256_1_0_0_1_n_n).rhsIdx (ix2 r c) q 1).val = c.val := by unfold DotDims.rhsIdx; kept_axis
  funext a; apply Fin.ext
  match a with
  | ⟨0, _⟩ => exact e0
  | ⟨1, _⟩ => exact e1

theorem dq_lhs (r : Fin 1024) (c : Fin 64) (q : (dot_S1024x256_S256x64_S1024x64_1_0_0_1_n_n).contr.Idx) (k : Fin 256) (h : (q ⟨0, by decide⟩).val = k.val) :
    (dot_S1024x256_S256x64_S1024x64_1_0_0_1_n_n).lhsIdx (ix2 r c) q = ix2 r k := by
  have e0 : ((dot_S1024x256_S256x64_S1024x64_1_0_0_1_n_n).lhsIdx (ix2 r c) q 0).val = r.val := by unfold DotDims.lhsIdx; kept_axis
  have e1 : ((dot_S1024x256_S256x64_S1024x64_1_0_0_1_n_n).lhsIdx (ix2 r c) q 1).val = k.val := ((dot_S1024x256_S256x64_S1024x64_1_0_0_1_n_n).lhsIdx_val_of_single rfl _ q).trans h
  funext a; apply Fin.ext
  match a with
  | ⟨0, _⟩ => exact e0
  | ⟨1, _⟩ => exact e1

theorem dq_rhs (r : Fin 1024) (c : Fin 64) (q : (dot_S1024x256_S256x64_S1024x64_1_0_0_1_n_n).contr.Idx) (k : Fin 256) (h : (q ⟨0, by decide⟩).val = k.val) :
    (dot_S1024x256_S256x64_S1024x64_1_0_0_1_n_n).rhsIdx (ix2 r c) q = ix2 k c := by
  have e0 : ((dot_S1024x256_S256x64_S1024x64_1_0_0_1_n_n).rhsIdx (ix2 r c) q 0).val = k.val := ((dot_S1024x256_S256x64_S1024x64_1_0_0_1_n_n).rhsIdx_val_of_single rfl _ q).trans h
  have e1 : ((dot_S1024x256_S256x64_S1024x64_1_0_0_1_n_n).rhsIdx (ix2 r c) q 1).val = c.val := by unfold DotDims.rhsIdx; kept_axis
  funext a; apply Fin.ext
  match a with
  | ⟨0, _⟩ => exact e0
  | ⟨1, _⟩ => exact e1

/-- The scores product, batched over time: at (t, i, j) the left operand is read at (t, i, k), the right at (t, j, k). -/
theorem ds_lhs (t : Fin 64) (i : Fin 16) (j : Fin 128) (q : (dot_S64x16x64_S64x128x64_S64x16x128_2_2_1_1_0_0).contr.Idx) (k : Fin 64) (h : (q ⟨0, by decide⟩).val = k.val) :
    (dot_S64x16x64_S64x128x64_S64x16x128_2_2_1_1_0_0).lhsIdx (ix3 t i j) q = ix3 t i k := by
  have e0 : ((dot_S64x16x64_S64x128x64_S64x16x128_2_2_1_1_0_0).lhsIdx (ix3 t i j) q 0).val = t.val := by unfold DotDims.lhsIdx; batch_axis
  have e1 : ((dot_S64x16x64_S64x128x64_S64x16x128_2_2_1_1_0_0).lhsIdx (ix3 t i j) q 1).val = i.val := by unfold DotDims.lhsIdx; kept_axis
  have e2 : ((dot_S64x16x64_S64x128x64_S64x16x128_2_2_1_1_0_0).lhsIdx (ix3 t i j) q 2).val = k.val := ((dot_S64x16x64_S64x128x64_S64x16x128_2_2_1_1_0_0).lhsIdx_val_of_single rfl _ q).trans h
  funext a; apply Fin.ext
  match a with
  | ⟨0, _⟩ => exact e0
  | ⟨1, _⟩ => exact e1
  | ⟨2, _⟩ => exact e2

theorem ds_rhs (t : Fin 64) (i : Fin 16) (j : Fin 128) (q : (dot_S64x16x64_S64x128x64_S64x16x128_2_2_1_1_0_0).contr.Idx) (k : Fin 64) (h : (q ⟨0, by decide⟩).val = k.val) :
    (dot_S64x16x64_S64x128x64_S64x16x128_2_2_1_1_0_0).rhsIdx (ix3 t i j) q = ix3 t j k := by
  have e0 : ((dot_S64x16x64_S64x128x64_S64x16x128_2_2_1_1_0_0).rhsIdx (ix3 t i j) q 0).val = t.val := by unfold DotDims.rhsIdx; batch_axis
  have e1 : ((dot_S64x16x64_S64x128x64_S64x16x128_2_2_1_1_0_0).rhsIdx (ix3 t i j) q 1).val = j.val := by unfold DotDims.rhsIdx; kept_axis
  have e2 : ((dot_S64x16x64_S64x128x64_S64x16x128_2_2_1_1_0_0).rhsIdx (ix3 t i j) q 2).val = k.val := ((dot_S64x16x64_S64x128x64_S64x16x128_2_2_1_1_0_0).rhsIdx_val_of_single rfl _ q).trans h
  funext a; apply Fin.ext
  match a with
  | ⟨0, _⟩ => exact e0
  | ⟨1, _⟩ => exact e1
  | ⟨2, _⟩ => exact e2

/-- The weights-times-values product, batched over time: at (t, i, r) the left operand is read at (t, i, j), the right at (t, j, r). -/
theorem da_lhs (t : Fin 64) (i : Fin 16) (r : Fin 256) (q : (dot_S64x16x128_S64x128x256_S64x16x256_2_1_1_2_0_0).contr.Idx) (j : Fin 128) (h : (q ⟨0, by decide⟩).val = j.val) :
    (dot_S64x16x128_S64x128x256_S64x16x256_2_1_1_2_0_0).lhsIdx (ix3 t i r) q = ix3 t i j := by
  have e0 : ((dot_S64x16x128_S64x128x256_S64x16x256_2_1_1_2_0_0).lhsIdx (ix3 t i r) q 0).val = t.val := by unfold DotDims.lhsIdx; batch_axis
  have e1 : ((dot_S64x16x128_S64x128x256_S64x16x256_2_1_1_2_0_0).lhsIdx (ix3 t i r) q 1).val = i.val := by unfold DotDims.lhsIdx; kept_axis
  have e2 : ((dot_S64x16x128_S64x128x256_S64x16x256_2_1_1_2_0_0).lhsIdx (ix3 t i r) q 2).val = j.val := ((dot_S64x16x128_S64x128x256_S64x16x256_2_1_1_2_0_0).lhsIdx_val_of_single rfl _ q).trans h
  funext a; apply Fin.ext
  match a with
  | ⟨0, _⟩ => exact e0
  | ⟨1, _⟩ => exact e1
  | ⟨2, _⟩ => exact e2

theorem da_rhs (t : Fin 64) (i : Fin 16) (r : Fin 256) (q : (dot_S64x16x128_S64x128x256_S64x16x256_2_1_1_2_0_0).contr.Idx) (j : Fin 128) (h : (q ⟨0, by decide⟩).val = j.val) :
    (dot_S64x16x128_S64x128x256_S64x16x256_2_1_1_2_0_0).rhsIdx (ix3 t i r) q = ix3 t j r := by
  have e0 : ((dot_S64x16x128_S64x128x256_S64x16x256_2_1_1_2_0_0).rhsIdx (ix3 t i r) q 0).val = t.val := by unfold DotDims.rhsIdx; batch_axis
  have e1 : ((dot_S64x16x128_S64x128x256_S64x16x256_2_1_1_2_0_0).rhsIdx (ix3 t i r) q 1).val = j.val := ((dot_S64x16x128_S64x128x256_S64x16x256_2_1_1_2_0_0).rhsIdx_val_of_single rfl _ q).trans h
  have e2 : ((dot_S64x16x128_S64x128x256_S64x16x256_2_1_1_2_0_0).rhsIdx (ix3 t i r) q 2).val = r.val := by unfold DotDims.rhsIdx; kept_axis
  funext a; apply Fin.ext
  match a with
  | ⟨0, _⟩ => exact e0
  | ⟨1, _⟩ => exact e1
  | ⟨2, _⟩ => exact e2

/-! ## The three projections -/

/-- The key projection of a chunk of 16 time steps, at (t, j, k): ∑ p, x[t, j, p] · w[p, k]. -/
theorem kchunk_apply (w : FVec Ideal S256x64 .bf16) (xc : Vec Ideal S1x16x128x256 .f32) (t : Fin 16) (j : Fin 128) (k : Fin 64) :
    k0_pay12 (F := Ideal) w xc (ix3 t j k) = ∑ p : Fin 256, xc (ix4 (0 : Fin 1) t j p) * w (ix2 p k) := by
  unfold k0_pay12 k0_pay11
  dsimp only
  rw [shapeCast_self, cast_rc_abc (show 2048 = 16 * 128 from rfl),
    matmul_zero_read dot_S2048x256_S256x64_S2048x64_1_0_0_1_n_n none 256 rfl rfl _ _ _ (fun p => ix2 (row rfl t j) p) (fun p => ix2 p k)
      (fun q p h => dk_lhs _ _ q p h) (fun q p h => dk_rhs _ _ q p h)]
  refine Finset.sum_congr rfl fun p _ => ?_
  rw [cast_abc_rc (show 2048 = 16 * 128 from rfl), truncf_apply, shapeCast_1abc_abc_apply]

/-- The value projection of a chunk of 16 time steps, at (t, j, r): ∑ p, x[t, j, p] · w[p, r]. -/
theorem vchunk_apply (w : FVec Ideal S256x256 .bf16) (xc : Vec Ideal S1x16x128x256 .f32) (t : Fin 16) (j : Fin 128) (r : Fin 256) :
    k0_pay13 (F := Ideal) w xc (ix3 t j r) = ∑ p : Fin 256, xc (ix4 (0 : Fin 1) t j p) * w (ix2 p r) := by
  unfold k0_pay13 k0_pay11
  dsimp only
  rw [shapeCast_self, truncf_apply, cast_rc_abc (show 2048 = 16 * 128 from rfl),
    matmul_zero_read dot_S2048x256_S256x256_S2048x256_1_0_0_1_n_n none 256 rfl rfl _ _ _ (fun p => ix2 (row rfl t j) p) (fun p => ix2 p r)
      (fun q p h => dv_lhs _ _ q p h) (fun q p h => dv_rhs _ _ q p h)]
  refine Finset.sum_congr rfl fun p _ => ?_
  rw [cast_abc_rc (show 2048 = 16 * 128 from rfl), truncf_apply, shapeCast_1abc_abc_apply]

/-- The query projection of a slab of 16 nodes over all 64 time steps, at (t, i, k): ∑ p, x[t, i, p] · w[p, k]. -/
theorem qchunk_apply (w : FVec Ideal S256x64 .bf16) (xi : Vec Ideal S1x64x16x256 .f32) (t : Fin 64) (i : Fin 16) (k : Fin 64) :
    k0_pay23 (F := Ideal) w xi (ix3 t i k) = ∑ p : Fin 256, xi (ix4 (0 : Fin 1) t i p) * w (ix2 p k) := by
  unfold k0_pay23
  rw [cast_rc_abc (show 1024 = 64 * 16 from rfl),
    matmul_zero_read dot_S1024x256_S256x64_S1024x64_1_0_0_1_n_n none 256 rfl rfl _ _ _ (fun p => ix2 (row rfl t i) p) (fun p => ix2 p k)
      (fun q p h => dq_lhs _ _ q p h) (fun q p h => dq_rhs _ _ q p h)]
  refine Finset.sum_congr rfl fun p _ => ?_
  rw [cast_abc_rc (show 1024 = 64 * 16 from rfl), truncf_apply, shapeCast_1abc_abc_apply]

/-! ## The scaled scores -/

/-- The scaled scores of a slab of 16 query nodes against all 128 key nodes, at (t, i, j): the sum over the 64 key
    features of query times key, times the scale word. -/
theorem scores_apply (w : FVec Ideal S256x64 .bf16) (K : Vec Ideal S64x128x64 .f32) (xi : Vec Ideal S1x64x16x256 .f32)
    (t : Fin 64) (i : Fin 16) (j : Fin 128) :
    k0_pay28 (F := Ideal) w K xi (ix3 t i j)
      = (∑ k : Fin 64, k0_pay23 (F := Ideal) w xi (ix3 t i k) * K (ix3 t j k)) * Ideal.ofBits .f32 0x3E000000#32 := by
  unfold k0_pay28 k0_pay23
  rw [mulf_apply, broadcast_apply,
    matmul_zero_read dot_S64x16x64_S64x128x64_S64x16x128_2_2_1_1_0_0 (some .fp32) 64 rfl rfl _ _ _ (fun k => ix3 t i k) (fun k => ix3 t j k)
      (fun q k h => ds_lhs t i j q k h) (fun q k h => ds_rhs t i j q k h)]
  rfl

/-! ## The softmax down the time axis and the weighted sum of values -/

/-- The exponential of a vector, at an index. -/
theorem exp_apply {s : Shape} {φ : FTy} (a : FVec Ideal s φ) (i : s.Idx) : exp a i = Ideal.exp (a i) := rfl

/-- Inserting the time coordinate in front of (i, j). -/
theorem lift_abc_first {a b c : ℕ} (h : Shape.Reduces ⟨3, ![a, b, c]⟩ [0] ⟨2, ![b, c]⟩) (i : Fin b) (j : Fin c) (u : Fin a) :
    h.lift (ix2 i j) u = ix3 u i j := by
  funext x
  match x with
  | ⟨0, _⟩ => exact Fin.ext rfl
  | ⟨1, _⟩ => exact Fin.ext rfl
  | ⟨2, _⟩ => exact Fin.ext rfl

/-- The maximum down the time axis, kept as a [1, 16, 128] row and broadcast back over the 64 time steps, read at
    (t, i, j): the fold of `max` over the 64 scores of the pair (i, j), from the accumulator's word. -/
theorem colmax_apply (s : FVec Ideal S64x16x128 .f32) (h1 : Shape.Reduces S64x16x128 [0] S16x128)
    (hacc : (0xFF800000#32 : BitVec 32) = 0xFF800000#32)
    (h2 : S16x128.ShapeCasts S1x16x128) (h3 : S1x16x128.Broadcasts S64x16x128) (t : Fin 64) (i : Fin 16) (j : Fin 128) :
    broadcastTo S64x16x128 (shapeCast S1x16x128 (multiReduction (s := S64x16x128) .maximumf ([0] : List (Fin 3)) S16x128 s 0xFF800000#32 h1 (.inl rfl) hacc) h2) h3 (ix3 t i j)
      = Finset.univ.fold max (Ideal.ofBits .f32 0xFF800000#32) (fun u : Fin 64 => s (ix3 u i j)) := by
  rw [Cert.LibLayout3.broadcastTo_1bc_abc_apply, shapeCast_ab_1ab_apply]
  refine (Ideal.multiReduction_maximumf_single s 0xFF800000#32 h1 (.inl rfl) hacc (ix2 i j)).trans ?_
  refine congrArg (Finset.univ.fold max _) (funext fun u => ?_)
  exact congrArg s (lift_abc_first h1 i j u)

/-- The sum down the time axis, kept as a [1, 16, 128] row and broadcast back, read at (t, i, j). -/
theorem colsum_apply (e : FVec Ideal S64x16x128 .f32) (h1 : Shape.Reduces S64x16x128 [0] S16x128)
    (hacc : (0x00000000#32 : BitVec 32) = 0x00000000#32)
    (h2 : S16x128.ShapeCasts S1x16x128) (h3 : S1x16x128.Broadcasts S64x16x128) (t : Fin 64) (i : Fin 16) (j : Fin 128) :
    broadcastTo S64x16x128 (shapeCast S1x16x128 (multiReduction (s := S64x16x128) .add ([0] : List (Fin 3)) S16x128 e 0x00000000#32 h1 (.inl rfl) hacc) h2) h3 (ix3 t i j)
      = ∑ u : Fin 64, e (ix3 u i j) := by
  rw [Cert.LibLayout3.broadcastTo_1bc_abc_apply, shapeCast_ab_1ab_apply]
  refine (Ideal.multiReduction_add_single e 0x00000000#32 h1 (.inl rfl) hacc (ix2 i j)).trans ?_
  refine Finset.sum_congr rfl fun u _ => ?_
  exact congrArg e (lift_abc_first h1 i j u)

/-- From the scaled scores `s` of a slab and the values `V`: the slab's output at (t, i, r) is the sum over the key
    nodes `j` of the softmax weight of time `t` among the 64 scores of the pair (i, j), times the value at (t, j, r). -/
theorem tail_apply (V : Vec Ideal S64x128x256 .bf16) (s : FVec Ideal S64x16x128 .f32) (u : Fin 1) (t : Fin 64) (i : Fin 16) (r : Fin 256) :
    k0_pay1 (F := Ideal) V s (ix4 u t i r)
      = ∑ j : Fin 128, Cert.AttnSpec.soft (Ideal.ofBits .f32 0xFF800000#32) (fun v => s (ix3 v i j)) t * V (ix3 t j r) := by
  unfold k0_pay1
  refine (shapeCast_abc_1abc_apply _ _ u t i r).trans ?_
  refine (matmul_zero_read (φ₁ := .bf16) (φ₂ := .bf16) dot_S64x16x128_S64x128x256_S64x16x256_2_1_1_2_0_0 none 128 rfl rfl _ V (ix3 t i r) (fun j => ix3 t i j) (fun j => ix3 t j r)
      (fun q j h => da_lhs t i r q j h) (fun q j h => da_rhs t i r q j h)).trans ?_
  refine Finset.sum_congr rfl fun j _ => ?_
  congr 1
  rw [truncf_apply, divf_apply, colsum_apply]
  unfold Cert.AttnSpec.soft
  simp only [exp_apply, subf_apply, colmax_apply]

end Cert.KernelIdeal.Stages

end
-- ==== Proof.Block.lean ====
/-
  What the kernel's body leaves in the output's staging buffer, as ONE function of the staged inputs.

  At a grid point the body sees one batch entry x0 [1, 64, 128, 256] and the three weight matrices. It fills a key
  scratch and a value scratch by four stores each (one per chunk of 16 time steps), reads both back whole, and then
  fills the output block by eight stores (one per slab of 16 query nodes). Every store's payload, at its local index,
  is the same function of (x0, weights) evaluated at the index the store's rectangle places it at; so the scratches read
  back as the whole key and value arrays, and the output block is the attention of the batch entry.
-/
import proofs.«111920_j46179488366786_2_alg».proof.Proof.Gen.KernelIdeal.Frame
import proofs.«111920_j46179488366786_2_alg».proof.Proof.Stages
import proofs.«111920_j46179488366786_2_alg».proof.Proof.AttnSpec
import Idealize.ShloMosaic.Lib.Pipeline.Value
import Idealize.ShloMosaic.Lib.Tactic

noncomputable section

open scoped BigOperators

namespace Cert.KernelIdeal.Block

open Idealize.ShloMosaic Idealize.ShloMosaic.ValueIdx Idealize.ShloMosaic.Tactic Cert.KernelIdeal Cert.KernelIdeal.Gen Cert.KernelIdeal.Stages

/-- The fold of maxima starts from the word -∞; the scores are scaled by the word 1/8. -/
abbrev LO : EReal := Ideal.ofBits .f32 0xFF800000#32
abbrev SC : EReal := Ideal.ofBits .f32 0x3E000000#32

/-- The keys of the whole batch entry: at (t, j, k), ∑ p, x0[0, t, j, p] · wk[p, k]. -/
def keys (x0 : Vec Ideal S1x64x128x256 .f32) (wk : Vec Ideal S256x64 .bf16) : Vec Ideal S64x128x64 .f32 :=
  fun y => ∑ p : Fin 256, x0 (ix4 (0 : Fin 1) (y 0) (y 1) p) * wk (ix2 p (y 2))

/-- The values of the whole batch entry: at (t, j, r), ∑ p, x0[0, t, j, p] · wv[p, r]. -/
def vals (x0 : Vec Ideal S1x64x128x256 .f32) (wv : Vec Ideal S256x256 .bf16) : Vec Ideal S64x128x256 .bf16 :=
  fun y => ∑ p : Fin 256, x0 (ix4 (0 : Fin 1) (y 0) (y 1) p) * wv (ix2 p (y 2))

/-- The attention of the batch entry, as the contents of its [1, 64, 128, 256] block. -/
def blockOut (x0 : Vec Ideal S1x64x128x256 .f32) (wq wk : Vec Ideal S256x64 .bf16) (wv : Vec Ideal S256x256 .bf16) :
    Vec Ideal S1x64x128x256 .f32 :=
  fun y => Cert.AttnSpec.attn LO SC (fun t n p => x0 (ix4 (0 : Fin 1) t n p)) (fun p k => wq (ix2 p k)) (fun p k => wk (ix2 p k))
    (fun p r => wv (ix2 p r)) (y 1) (y 2) (y 3)

/-! ## The stores' payloads -/

/-- The key store of the time chunk starting at `t0`: its payload at a local index is `keys` at the index the store's
    rectangle places it at. -/
theorem kpiece (x0 : Vec Ideal S1x64x128x256 .f32) (w w' : Vec Ideal S256x64 .bf16) (hw : w' = w) (t0 : ℕ)
    (inbx : ∀ a, (![0, t0, 0, 0] : Fin 4 → ℕ) a + S1x16x128x256.size a ≤ S1x64x128x256.size a)
    (inbk : ∀ a, (![t0, 0, 0] : Fin 3 → ℕ) a + S16x128x64.size a ≤ S64x128x64.size a)
    (xc : Vec Ideal S1x16x128x256 .f32) (hxc : xc = View.ld x0 (Rect.unit (s := S1x64x128x256) ![0, t0, 0, 0] S1x16x128x256.size inbx))
    (y : S16x128x64.Idx) :
    k0_pay12 (F := Ideal) w' xc y = keys x0 w ((Rect.unit (s := S64x128x64) ![t0, 0, 0] S16x128x64.size inbk).emb y) := by
  subst hw hxc
  obtain ⟨t, j, k, rfl⟩ : ∃ (t : Fin 16) (j : Fin 128) (k : Fin 64), y = ix3 t j k := ⟨y 0, y 1, y 2, eq_ix3 y⟩
  rw [kchunk_apply]
  unfold keys
  refine Finset.sum_congr rfl fun p _ => ?_
  refine congr (congrArg _ (congrArg x0 (funext fun a => Fin.ext ?_))) (congrArg w' (funext fun a => Fin.ext ?_))
  · match a with
    | ⟨0, _⟩ => rfl
    | ⟨1, _⟩ => rfl
    | ⟨2, _⟩ => rfl
    | ⟨3, _⟩ => show 0 + 1 * p.val = p.val; omega
  · match a with
    | ⟨0, _⟩ => rfl
    | ⟨1, _⟩ => show k.val = 0 + 1 * k.val; omega

/-- The value store of the time chunk starting at `t0`, likewise. -/
theorem vpiece (x0 : Vec Ideal S1x64x128x256 .f32) (w w' : Vec Ideal S256x256 .bf16) (hw : w' = w) (t0 : ℕ)
    (inbx : ∀ a, (![0, t0, 0, 0] : Fin 4 → ℕ) a + S1x16x128x256.size a ≤ S1x64x128x256.size a)
    (inbv : ∀ a, (![t0, 0, 0] : Fin 3 → ℕ) a + S16x128x256.size a ≤ S64x128x256.size a)
    (xc : Vec Ideal S1x16x128x256 .f32) (hxc : xc = View.ld x0 (Rect.unit (s := S1x64x128x256) ![0, t0, 0, 0] S1x16x128x256.size inbx))
    (y : S16x128x256.Idx) :
    k0_pay13 (F := Ideal) w' xc y = vals x0 w ((Rect.unit (s := S64x128x256) ![t0, 0, 0] S16x128x256.size inbv).emb y) := by
  subst hw hxc
  obtain ⟨t, j, r, rfl⟩ : ∃ (t : Fin 16) (j : Fin 128) (r : Fin 256), y = ix3 t j r := ⟨y 0, y 1, y 2, eq_ix3 y⟩
  rw [vchunk_apply]
  unfold vals
  refine Finset.sum_congr rfl fun p _ => ?_
  refine congr (congrArg _ (congrArg x0 (funext fun a => Fin.ext ?_))) (congrArg w' (funext fun a => Fin.ext ?_))
  · match a with
    | ⟨0, _⟩ => rfl
    | ⟨1, _⟩ => rfl
    | ⟨2, _⟩ => rfl
    | ⟨3, _⟩ => show 0 + 1 * p.val = p.val; omega
  · match a with
    | ⟨0, _⟩ => rfl
    | ⟨1, _⟩ => show r.val = 0 + 1 * r.val; omega

/-- The output store of the slab of 16 query nodes starting at `i0`: from the whole keys and values and the slab's
    rows of x0, its payload at a local index is the batch entry's attention at the index its rectangle places it at. -/
theorem opiece (x0 : Vec Ideal S1x64x128x256 .f32) (wq wk : Vec Ideal S256x64 .bf16) (wv : Vec Ideal S256x256 .bf16)
    (w' : Vec Ideal S256x64 .bf16) (hw : w' = wq) (K : Vec Ideal S64x128x64 .f32) (hK : K = keys x0 wk)
    (V : Vec Ideal S64x128x256 .bf16) (hV : V = vals x0 wv) (i0 : ℕ)
    (inb : ∀ a, (![0, 0, i0, 0] : Fin 4 → ℕ) a + S1x64x16x256.size a ≤ S1x64x128x256.size a)
    (xi : Vec Ideal S1x64x16x256 .f32) (hxi : xi = View.ld x0 (Rect.unit (s := S1x64x128x256) ![0, 0, i0, 0] S1x64x16x256.size inb))
    (y : S1x64x16x256.Idx) :
    k0_pay1 (F := Ideal) V (k0_pay28 (F := Ideal) w' K xi) y
      = blockOut x0 wq wk wv ((Rect.unit (s := S1x64x128x256) ![0, 0, i0, 0] S1x64x16x256.size inb).emb y) := by
  subst hw hK hV hxi
  obtain ⟨u, t, i, r, rfl⟩ : ∃ (u : Fin 1) (t : Fin 64) (i : Fin 16) (r : Fin 256), y = ix4 u t i r :=
    ⟨y 0, y 1, y 2, y 3, eq_ix4 y⟩
  rw [tail_apply]
  unfold blockOut Cert.AttnSpec.attn
  have e1 : ((Rect.unit (s := S1x64x128x256) ![0, 0, i0, 0] S1x64x16x256.size inb).emb (ix4 u t i r)) 1 = t :=
    Fin.ext (by show 0 + 1 * t.val = t.val; omega)
  have e3 : ((Rect.unit (s := S1x64x128x256) ![0, 0, i0, 0] S1x64x16x256.size inb).emb (ix4 u t i r)) 3 = r :=
    Fin.ext (by show 0 + 1 * r.val = r.val; omega)
  rw [e1, e3]
  refine Finset.sum_congr rfl fun j _ => ?_
  refine congr (congrArg _ (congr (congrArg _ (funext fun v => ?_)) rfl)) rfl
  rw [scores_apply]
  unfold Cert.AttnSpec.score
  refine congrArg (· * SC) (Finset.sum_congr rfl fun k _ => ?_)
  refine congr (congrArg _ ?_) rfl
  rw [qchunk_apply]
  unfold Cert.AttnSpec.proj
  refine Finset.sum_congr rfl fun p _ => ?_
  refine congr (congrArg _ (congrArg x0 (funext fun a => Fin.ext ?_))) rfl
  match a with
  | ⟨0, _⟩ => rfl
  | ⟨1, _⟩ => show 0 + 1 * v.val = v.val; omega
  | ⟨2, _⟩ => rfl
  | ⟨3, _⟩ => show 0 + 1 * p.val = p.val; omega

/-! ## The scratches read back, and the block -/

theorem hz2 : (![0, 0] : Fin 2 → ℕ) = fun _ => 0 := funext fun a => by fin_cases a <;> rfl
theorem hz3 : (![0, 0, 0] : Fin 3 → ℕ) = fun _ => 0 := funext fun a => by fin_cases a <;> rfl

/-- The key scratch after its four stores (time chunks 0, 16, 32, 48; the last store first), read back whole, is the
    whole key array: the four rectangles tile the scratch, and each store's payload is `keys` where it lands. -/
theorem kscratch (v : View sig .tc .vmem S64x128x64 .f32) (x0 : Vec Ideal S1x64x128x256 .f32) (wk w' : Vec Ideal S256x64 .bf16)
    (hw : w' = wk)
    (ix0 : ∀ a, (![0, 0, 0, 0] : Fin 4 → ℕ) a + S1x16x128x256.size a ≤ S1x64x128x256.size a)
    (ix1 : ∀ a, (![0, 16, 0, 0] : Fin 4 → ℕ) a + S1x16x128x256.size a ≤ S1x64x128x256.size a)
    (ix2' : ∀ a, (![0, 32, 0, 0] : Fin 4 → ℕ) a + S1x16x128x256.size a ≤ S1x64x128x256.size a)
    (ix3' : ∀ a, (![0, 48, 0, 0] : Fin 4 → ℕ) a + S1x16x128x256.size a ≤ S1x64x128x256.size a)
    (xc0 xc1 xc2 xc3 : Vec Ideal S1x16x128x256 .f32)
    (h0 : xc0 = View.ld x0 (Rect.unit (s := S1x64x128x256) ![0, 0, 0, 0] S1x16x128x256.size ix0))
    (h1 : xc1 = View.ld x0 (Rect.unit (s := S1x64x128x256) ![0, 16, 0, 0] S1x16x128x256.size ix1))
    (h2 : xc2 = View.ld x0 (Rect.unit (s := S1x64x128x256) ![0, 32, 0, 0] S1x16x128x256.size ix2'))
    (h3 : xc3 = View.ld x0 (Rect.unit (s := S1x64x128x256) ![0, 48, 0, 0] S1x16x128x256.size ix3'))
    (ik0 : ∀ a, (![0, 0, 0] : Fin 3 → ℕ) a + S16x128x64.size a ≤ S64x128x64.size a)
    (ik1 : ∀ a, (![16, 0, 0] : Fin 3 → ℕ) a + S16x128x64.size a ≤ S64x128x64.size a)
    (ik2 : ∀ a, (![32, 0, 0] : Fin 3 → ℕ) a + S16x128x64.size a ≤ S64x128x64.size a)
    (ik3 : ∀ a, (![48, 0, 0] : Fin 3 → ℕ) a + S16x128x64.size a ≤ S64x128x64.size a)
    (iw : ∀ a, (![0, 0, 0] : Fin 3 → ℕ) a + S64x128x64.size a ≤ S64x128x64.size a) :
    v.readCov
        [(⟨Rect.unit (s := S64x128x64) ![48, 0, 0] S16x128x64.size ik3, k0_pay12 (F := Ideal) w' xc3⟩ : View.Piece (Elt Ideal) S64x128x64 .f32),
         ⟨Rect.unit (s := S64x128x64) ![32, 0, 0] S16x128x64.size ik2, k0_pay12 (F := Ideal) w' xc2⟩,
         ⟨Rect.unit (s := S64x128x64) ![16, 0, 0] S16x128x64.size ik1, k0_pay12 (F := Ideal) w' xc1⟩,
         ⟨Rect.unit (s := S64x128x64) ![0, 0, 0] S16x128x64.size ik0, k0_pay12 (F := Ideal) w' xc0⟩]
        (Rect.unit (s := S64x128x64) ![0, 0, 0] S64x128x64.size iw).toLoadRect
      = keys x0 wk := by
  have hcov := View.cover_of_tiledL
    [(⟨Rect.unit (s := S64x128x64) ![48, 0, 0] S16x128x64.size ik3, k0_pay12 (F := Ideal) w' xc3⟩ : View.Piece (Elt Ideal) S64x128x64 .f32),
         ⟨Rect.unit (s := S64x128x64) ![32, 0, 0] S16x128x64.size ik2, k0_pay12 (F := Ideal) w' xc2⟩,
         ⟨Rect.unit (s := S64x128x64) ![16, 0, 0] S16x128x64.size ik1, k0_pay12 (F := Ideal) w' xc1⟩,
         ⟨Rect.unit (s := S64x128x64) ![0, 0, 0] S16x128x64.size ik0, k0_pay12 (F := Ideal) w' xc0⟩]
    S16x128x64.size (by sl_kernel_rfl)
  rw [View.readCov_eq_canon_ld _ _ _ hcov, View.ld_unit_zero (S := S64x128x64) hz3]
  funext z
  refine View.canon_apply_of_pieces (keys x0 wk) _ ?_ z (hcov z)
  intro p hp
  simp only [List.mem_cons, List.not_mem_nil, or_false] at hp
  rcases hp with rfl | rfl | rfl | rfl
  · exact fun y => kpiece x0 wk w' hw 48 ix3' ik3 xc3 h3 y
  · exact fun y => kpiece x0 wk w' hw 32 ix2' ik2 xc2 h2 y
  · exact fun y => kpiece x0 wk w' hw 16 ix1 ik1 xc1 h1 y
  · exact fun y => kpiece x0 wk w' hw 0 ix0 ik0 xc0 h0 y

/-- The value scratch after its four stores, read back whole, is the whole value array. -/
theorem vscratch (v : View sig .tc .vmem S64x128x256 .bf16) (x0 : Vec Ideal S1x64x128x256 .f32) (wv w' : Vec Ideal S256x256 .bf16)
    (hw : w' = wv)
    (ix0 : ∀ a, (![0, 0, 0, 0] : Fin 4 → ℕ) a + S1x16x128x256.size a ≤ S1x64x128x256.size a)
    (ix1 : ∀ a, (![0, 16, 0, 0] : Fin 4 → ℕ) a + S1x16x128x256.size a ≤ S1x64x128x256.size a)
    (ix2' : ∀ a, (![0, 32, 0, 0] : Fin 4 → ℕ) a + S1x16x128x256.size a ≤ S1x64x128x256.size a)
    (ix3' : ∀ a, (![0, 48, 0, 0] : Fin 4 → ℕ) a + S1x16x128x256.size a ≤ S1x64x128x256.size a)
    (xc0 xc1 xc2 xc3 : Vec Ideal S1x16x128x256 .f32)
    (h0 : xc0 = View.ld x0 (Rect.unit (s := S1x64x128x256) ![0, 0, 0, 0] S1x16x128x256.size ix0))
    (h1 : xc1 = View.ld x0 (Rect.unit (s := S1x64x128x256) ![0, 16, 0, 0] S1x16x128x256.size ix1))
    (h2 : xc2 = View.ld x0 (Rect.unit (s := S1x64x128x256) ![0, 32, 0, 0] S1x16x128x256.size ix2'))
    (h3 : xc3 = View.ld x0 (Rect.unit (s := S1x64x128x256) ![0, 48, 0, 0] S1x16x128x256.size ix3'))
    (iv0 : ∀ a, (![0, 0, 0] : Fin 3 → ℕ) a + S16x128x256.size a ≤ S64x128x256.size a)
    (iv1 : ∀ a, (![16, 0, 0] : Fin 3 → ℕ) a + S16x128x256.size a ≤ S64x128x256.size a)
    (iv2 : ∀ a, (![32, 0, 0] : Fin 3 → ℕ) a + S16x128x256.size a ≤ S64x128x256.size a)
    (iv3 : ∀ a, (![48, 0, 0] : Fin 3 → ℕ) a + S16x128x256.size a ≤ S64x128x256.size a)
    (iw : ∀ a, (![0, 0, 0] : Fin 3 → ℕ) a + S64x128x256.size a ≤ S64x128x256.size a) :
    v.readCov
        [(⟨Rect.unit (s := S64x128x256) ![48, 0, 0] S16x128x256.size iv3, k0_pay13 (F := Ideal) w' xc3⟩ : View.Piece (Elt Ideal) S64x128x256 .bf16),
         ⟨Rect.unit (s := S64x128x256) ![32, 0, 0] S16x128x256.size iv2, k0_pay13 (F := Ideal) w' xc2⟩,
         ⟨Rect.unit (s := S64x128x256) ![16, 0, 0] S16x128x256.size iv1, k0_pay13 (F := Ideal) w' xc1⟩,
         ⟨Rect.unit (s := S64x128x256) ![0, 0, 0] S16x128x256.size iv0, k0_pay13 (F := Ideal) w' xc0⟩]
        (Rect.unit (s := S64x128x256) ![0, 0, 0] S64x128x256.size iw).toLoadRect
      = vals x0 wv := by
  have hcov := View.cover_of_tiledL
    [(⟨Rect.unit (s := S64x128x256) ![48, 0, 0] S16x128x256.size iv3, k0_pay13 (F := Ideal) w' xc3⟩ : View.Piece (Elt Ideal) S64x128x256 .bf16),
         ⟨Rect.unit (s := S64x128x256) ![32, 0, 0] S16x128x256.size iv2, k0_pay13 (F := Ideal) w' xc2⟩,
         ⟨Rect.unit (s := S64x128x256) ![16, 0, 0] S16x128x256.size iv1, k0_pay13 (F := Ideal) w' xc1⟩,
         ⟨Rect.unit (s := S64x128x256) ![0, 0, 0] S16x128x256.size iv0, k0_pay13 (F := Ideal) w' xc0⟩]
    S16x128x256.size (by sl_kernel_rfl)
  rw [View.readCov_eq_canon_ld _ _ _ hcov, View.ld_unit_zero (S := S64x128x256) hz3]
  funext z
  refine View.canon_apply_of_pieces (vals x0 wv) _ ?_ z (hcov z)
  intro p hp
  simp only [List.mem_cons, List.not_mem_nil, or_false] at hp
  rcases hp with rfl | rfl | rfl | rfl
  · exact fun y => vpiece x0 wv w' hw 48 ix3' iv3 xc3 h3 y
  · exact fun y => vpiece x0 wv w' hw 32 ix2' iv2 xc2 h2 y
  · exact fun y => vpiece x0 wv w' hw 16 ix1 iv1 xc1 h1 y
  · exact fun y => vpiece x0 wv w' hw 0 ix0 iv0 xc0 h0 y

set_option maxRecDepth 16384 in
/-- THE BLOCK: what the body leaves in the output's staging buffer is the attention of the batch entry it was given —
    the run's eight found pieces all agree with `blockOut` where they land, and together they cover the block. -/
theorem out_block (c : Dev nD) (i : grid0.Coords) (arg1 : Memref sig .tc .vmem S1x64x128x256 .f32) (harg1 : arg1.IsWhole) (arg2 : Memref sig .tc .vmem S256x64 .bf16) (harg2 : arg2.IsWhole) (arg3 : Memref sig .tc .vmem S256x64 .bf16) (harg3 : arg3.IsWhole) (arg4 : Memref sig .tc .vmem S256x256 .bf16) (harg4 : arg4.IsWhole) (arg5 : Memref sig .tc .vmem S1x64x128x256 .f32) (harg5 : arg5.IsWhole) (arg6 : Memref sig .tc .vmem S64x128x64 .f32) (harg6 : arg6.IsWhole) (arg7 : Memref sig .tc .vmem S64x128x256 .bf16) (harg7 : arg7.IsWhole)
    (x0 : Vec Ideal S1x64x128x256 .f32) (x1 : Vec Ideal S256x64 .bf16) (x2 : Vec Ideal S256x64 .bf16) (x3 : Vec Ideal S256x256 .bf16) :
    out0_A_4 (F := Ideal) c i arg1 harg1 arg2 harg2 arg3 harg3 arg4 harg4 arg5 harg5 arg6 harg6 arg7 harg7 x0 x1 x2 x3 = blockOut x0 x1 x2 x3 := by
  unfold out0_A_4
  rw [View.read_writes_eq_canon _ _ _ (cover0_A_4 c i arg1 harg1 arg2 harg2 arg3 harg3 arg4 harg4 arg5 harg5 arg6 harg6 arg7 harg7 x0 x1 x2 x3)]
  funext y
  refine View.canon_apply_of_pieces (blockOut x0 x1 x2 x3) _ ?_ y (cover0_A_4 c i arg1 harg1 arg2 harg2 arg3 harg3 arg4 harg4 arg5 harg5 arg6 harg6 arg7 harg7 x0 x1 x2 x3 y)
  unfold kernelRun0_A
  dsimp only
  sl_unfold_words
  -- the three weight matrices, loaded whole
  have hwq : k0_pay4 (F := Ideal) (View.readAt (Elt Ideal) arg2.view (Rect.unit (s := S256x64) ![0, 0] S256x64.size inb_S256x64_S256x64_0_0).toLoadRect (harg2.unread x1)) = x1 := by
    unfold k0_pay4
    simp only [View.readAt_eq_ld, harg2.read_unread, View.ld_unit_zero (S := S256x64) hz2, shapeCast_self]
  have hwk : k0_pay2 (F := Ideal) (View.readAt (Elt Ideal) arg3.view (Rect.unit (s := S256x64) ![0, 0] S256x64.size inb_S256x64_S256x64_0_0).toLoadRect (harg3.unread x2)) = x2 := by
    unfold k0_pay2
    simp only [View.readAt_eq_ld, harg3.read_unread, View.ld_unit_zero (S := S256x64) hz2, shapeCast_self]
  have hwv : k0_pay3 (F := Ideal) (View.readAt (Elt Ideal) arg4.view (Rect.unit (s := S256x256) ![0, 0] S256x256.size inb_S256x256_S256x256_0_0).toLoadRect (harg4.unread x3)) = x3 := by
    unfold k0_pay3
    simp only [View.readAt_eq_ld, harg4.read_unread, View.ld_unit_zero (S := S256x256) hz2, shapeCast_self]
  -- a load of x0's staging buffer through a rectangle
  have hX : ∀ (r : Rect S1x64x128x256), View.readAt (Elt Ideal) arg1.view r.toLoadRect (harg1.unread x0) = View.ld x0 r :=
    fun r => by rw [View.readAt_eq_ld, harg1.read_unread]
  -- the scratches, read back whole
  have hK := kscratch arg6.view x0 x2 _ hwk inb_S1x64x128x256_S1x16x128x256_0_0_0_0 inb_S1x64x128x256_S1x16x128x256_0_16_0_0
    inb_S1x64x128x256_S1x16x128x256_0_32_0_0 inb_S1x64x128x256_S1x16x128x256_0_48_0_0 _ _ _ _ (hX (Rect.unit (s := S1x64x128x256) ![0, 0, 0, 0] S1x16x128x256.size inb_S1x64x128x256_S1x16x128x256_0_0_0_0)) (hX (Rect.unit (s := S1x64x128x256) ![0, 16, 0, 0] S1x16x128x256.size inb_S1x64x128x256_S1x16x128x256_0_16_0_0)) (hX (Rect.unit (s := S1x64x128x256) ![0, 32, 0, 0] S1x16x128x256.size inb_S1x64x128x256_S1x16x128x256_0_32_0_0)) (hX (Rect.unit (s := S1x64x128x256) ![0, 48, 0, 0] S1x16x128x256.size inb_S1x64x128x256_S1x16x128x256_0_48_0_0))
    inb_S64x128x64_S16x128x64_0_0_0 inb_S64x128x64_S16x128x64_16_0_0 inb_S64x128x64_S16x128x64_32_0_0 inb_S64x128x64_S16x128x64_48_0_0
    inb_S64x128x64_S64x128x64_0_0_0
  have hV := vscratch arg7.view x0 x3 _ hwv inb_S1x64x128x256_S1x16x128x256_0_0_0_0 inb_S1x64x128x256_S1x16x128x256_0_16_0_0
    inb_S1x64x128x256_S1x16x128x256_0_32_0_0 inb_S1x64x128x256_S1x16x128x256_0_48_0_0 _ _ _ _ (hX (Rect.unit (s := S1x64x128x256) ![0, 0, 0, 0] S1x16x128x256.size inb_S1x64x128x256_S1x16x128x256_0_0_0_0)) (hX (Rect.unit (s := S1x64x128x256) ![0, 16, 0, 0] S1x16x128x256.size inb_S1x64x128x256_S1x16x128x256_0_16_0_0)) (hX (Rect.unit (s := S1x64x128x256) ![0, 32, 0, 0] S1x16x128x256.size inb_S1x64x128x256_S1x16x128x256_0_32_0_0)) (hX (Rect.unit (s := S1x64x128x256) ![0, 48, 0, 0] S1x16x128x256.size inb_S1x64x128x256_S1x16x128x256_0_48_0_0))
    inb_S64x128x256_S16x128x256_0_0_0 inb_S64x128x256_S16x128x256_16_0_0 inb_S64x128x256_S16x128x256_32_0_0 inb_S64x128x256_S16x128x256_48_0_0
    inb_S64x128x256_S64x128x256_0_0_0
  intro p hp
  simp only [List.mem_cons, List.not_mem_nil, or_false] at hp
  rcases hp with rfl | rfl | rfl | rfl | rfl | rfl | rfl | rfl
  · exact fun z => opiece x0 x1 x2 x3 _ hwq _ hK _ hV 112 inb_S1x64x128x256_S1x64x16x256_0_0_112_0 _ (hX (Rect.unit (s := S1x64x128x256) ![0, 0, 112, 0] S1x64x16x256.size inb_S1x64x128x256_S1x64x16x256_0_0_112_0)) z
  · exact fun z => opiece x0 x1 x2 x3 _ hwq _ hK _ hV 96 inb_S1x64x128x256_S1x64x16x256_0_0_96_0 _ (hX (Rect.unit (s := S1x64x128x256) ![0, 0, 96, 0] S1x64x16x256.size inb_S1x64x128x256_S1x64x16x256_0_0_96_0)) z
  · exact fun z => opiece x0 x1 x2 x3 _ hwq _ hK _ hV 80 inb_S1x64x128x256_S1x64x16x256_0_0_80_0 _ (hX (Rect.unit (s := S1x64x128x256) ![0, 0, 80, 0] S1x64x16x256.size inb_S1x64x128x256_S1x64x16x256_0_0_80_0)) z
  · exact fun z => opiece x0 x1 x2 x3 _ hwq _ hK _ hV 64 inb_S1x64x128x256_S1x64x16x256_0_0_64_0 _ (hX (Rect.unit (s := S1x64x128x256) ![0, 0, 64, 0] S1x64x16x256.size inb_S1x64x128x256_S1x64x16x256_0_0_64_0)) z
  · exact fun z => opiece x0 x1 x2 x3 _ hwq _ hK _ hV 48 inb_S1x64x128x256_S1x64x16x256_0_0_48_0 _ (hX (Rect.unit (s := S1x64x128x256) ![0, 0, 48, 0] S1x64x16x256.size inb_S1x64x128x256_S1x64x16x256_0_0_48_0)) z
  · exact fun z => opiece x0 x1 x2 x3 _ hwq _ hK _ hV 32 inb_S1x64x128x256_S1x64x16x256_0_0_32_0 _ (hX (Rect.unit (s := S1x64x128x256) ![0, 0, 32, 0] S1x64x16x256.size inb_S1x64x128x256_S1x64x16x256_0_0_32_0)) z
  · exact fun z => opiece x0 x1 x2 x3 _ hwq _ hK _ hV 16 inb_S1x64x128x256_S1x64x16x256_0_0_16_0 _ (hX (Rect.unit (s := S1x64x128x256) ![0, 0, 16, 0] S1x64x16x256.size inb_S1x64x128x256_S1x64x16x256_0_0_16_0)) z
  · exact fun z => opiece x0 x1 x2 x3 _ hwq _ hK _ hV 0 inb_S1x64x128x256_S1x64x16x256_0_0_0_0 _ (hX (Rect.unit (s := S1x64x128x256) ![0, 0, 0, 0] S1x64x16x256.size inb_S1x64x128x256_S1x64x16x256_0_0_0_0)) z

end Cert.KernelIdeal.Block

end
-- ==== Proof.KernelWhole.lean ====
/-
  From blocks to the array: after the kernel's run the result array is the attention layer of the argument arrays.

  The grid has one point per batch entry. Point t stages batch entry t of x (block (t, 0, 0, 0)) and the three weight
  matrices whole — as the region finds them, which is as launched: the host's changes of float format before the region
  are the identity on extended reals — and writes back block (t, 0, 0, 0) of the result. What it writes back is that
  batch entry's attention, so it is block t of the whole layer's function; the eight blocks cover the array.
-/
import proofs.«111920_j46179488366786_2_alg».proof.Proof.Gen.KernelIdeal.Value
import proofs.«111920_j46179488366786_2_alg».proof.Proof.Block
import proofs.«111920_j46179488366786_2_alg».proof.Proof.AttnSpec
import Idealize.ShloMosaic.Lib.Pipeline.Value
import Idealize.ShloMosaic.Lib.StableHlo.Run

noncomputable section

open scoped BigOperators

namespace Cert.KernelIdeal.Whole

open Idealize.ShloMosaic Idealize.ShloMosaic.ValueIdx Idealize.ShloMosaic.TcCoe Idealize.SL.Sem Cert.KernelIdeal Cert.KernelIdeal.Gen Cert.KernelIdeal.Block
open Idealize.ShloMosaic.Pipeline (Dat)

variable (m : (ℓ : Loc nD τ sig) → Buf (Elt Ideal) ℓ) (ρ : Dev nD → PrngReg)

/-- The result array after the run, on core `c`: the layer's function of the four arguments as launched. -/
def result (c : Dev nD) : Buf (Elt Ideal) ((c : Thread nD τ).loc main_v3) :=
  Cert.AttnSpec.whole (m ((c : Thread nD τ).loc main_arg0)) (m ((c : Thread nD τ).loc main_arg1))
    (m ((c : Thread nD τ).loc main_arg2)) (m ((c : Thread nD τ).loc main_arg3))

/-- The three weight arrays the region finds are the arguments: a change of float format is the identity. -/
theorem V_wq (c : Dev nD) : (V m c main_v0 : S256x64.Idx → EReal) = m ((c : Thread nD τ).loc main_arg1) := by
  dsimp only [V, hostOps0]; after_results; rfl
theorem V_wk (c : Dev nD) : (V m c main_v1 : S256x64.Idx → EReal) = m ((c : Thread nD τ).loc main_arg2) := by
  dsimp only [V, hostOps0]; after_results; rfl
theorem V_wv (c : Dev nD) : (V m c main_v2 : S256x256.Idx → EReal) = m ((c : Thread nD τ).loc main_arg3) := by
  dsimp only [V, hostOps0]; after_results; rfl

/-- The printed index maps over the grid: x's and the result's blocks move together along the batch axis and sit at 0
    on the others; the weights' blocks sit at (0, 0). -/
theorem idx_facts : ∀ t : Fin cfg0.N,
    win0_0.index t (0 : Fin 4) = win0_4.index t (0 : Fin 4) ∧ win0_0.index t (1 : Fin 4) = 0 ∧ win0_0.index t (2 : Fin 4) = 0 ∧ win0_0.index t (3 : Fin 4) = 0
    ∧ win0_4.index t (1 : Fin 4) = 0 ∧ win0_4.index t (2 : Fin 4) = 0 ∧ win0_4.index t (3 : Fin 4) = 0
    ∧ win0_1.index t (0 : Fin 2) = 0 ∧ win0_1.index t (1 : Fin 2) = 0 ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Every batch entry is some point's. -/
theorem idx_onto : ∀ q : Fin 8, ∃ t : Fin cfg0.N, win0_4.index t (0 : Fin 4) = q.val :=
  (by decide +kernel : ∀ q : Fin 8, ∃ t : Fin grid0.N, win0_4.index t (0 : Fin 4) = q.val)

/-- WHAT POINT `t` WRITES BACK is block `t` of the layer's function of the arguments: the body leaves the attention of
    the batch entry it staged (the block theorem), the staged weights are the arguments, and the staged batch entry and
    the written block are both entry `t` along the batch axis. -/
theorem flushed_eq (c : Dev nD) (t : Fin cfg0.N) :
    (dats m 0 c).flushed 4 t = ((cfg0.win 4).blk t).view.read (Elt Ideal) (result m c) := by
  rw [Cert.KernelIdeal.Value.flushed4_A, out_block]
  obtain ⟨e0, e1, e2, e3, f1, f2, f3, q0, q1, k0, k1, v0, v1⟩ := idx_facts t
  funext y
  show blockOut (iblk m c 0 t) (iblk m c 1 t) (iblk m c 2 t) (iblk m c 3 t) y
    = result m c (((cfg0.win 4).blk t).view.emb y)
  have hy0 : (y 0).val < 1 := (y 0).isLt
  -- the staged batch entry
  have hx : ∀ (u : Fin 64) (n : Fin 128) (p : Fin 256), iblk m c 0 t (ix4 (0 : Fin 1) u n p)
      = m ((c : Thread nD τ).loc main_arg0) (ix4 ((((cfg0.win 4).blk t).view.emb y) 0) u n p) := fun u n p => by
    show V m c main_arg0 (((cfg0.win 0).blk t).view.emb (ix4 (0 : Fin 1) u n p)) = _
    rw [V_main_arg0]
    refine congrArg _ (funext fun a => Fin.ext ?_)
    match a with
    | ⟨0, _⟩ => show win0_0.index t (0 : Fin 4) * 1 + 1 * 0 = win0_4.index t (0 : Fin 4) * 1 + 1 * (y 0).val; omega
    | ⟨1, _⟩ => show win0_0.index t (1 : Fin 4) * 64 + 1 * u.val = u.val; omega
    | ⟨2, _⟩ => show win0_0.index t (2 : Fin 4) * 128 + 1 * n.val = n.val; omega
    | ⟨3, _⟩ => show win0_0.index t (3 : Fin 4) * 256 + 1 * p.val = p.val; omega
  -- the staged weights
  have hq : ∀ (p : Fin 256) (k : Fin 64), iblk m c 1 t (ix2 p k) = m ((c : Thread nD τ).loc main_arg1) (ix2 p k) := fun p k => by
    show V m c main_v0 (((cfg0.win 1).blk t).view.emb (ix2 p k)) = _
    rw [V_wq]
    refine congrArg _ (funext fun a => Fin.ext ?_)
    match a with
    | ⟨0, _⟩ => show win0_1.index t (0 : Fin 2) * 256 + 1 * p.val = p.val; omega
    | ⟨1, _⟩ => show win0_1.index t (1 : Fin 2) * 64 + 1 * k.val = k.val; omega
  have hk : ∀ (p : Fin 256) (k : Fin 64), iblk m c 2 t (ix2 p k) = m ((c : Thread nD τ).loc main_arg2) (ix2 p k) := fun p k => by
    show V m c main_v1 (((cfg0.win 2).blk t).view.emb (ix2 p k)) = _
    rw [V_wk]
    refine congrArg _ (funext fun a => Fin.ext ?_)
    match a with
    | ⟨0, _⟩ => show win0_2.index t (0 : Fin 2) * 256 + 1 * p.val = p.val; omega
    | ⟨1, _⟩ => show win0_2.index t (1 : Fin 2) * 64 + 1 * k.val = k.val; omega
  have hv : ∀ (p : Fin 256) (r : Fin 256), iblk m c 3 t (ix2 p r) = m ((c : Thread nD τ).loc main_arg3) (ix2 p r) := fun p r => by
    show V m c main_v2 (((cfg0.win 3).blk t).view.emb (ix2 p r)) = _
    rw [V_wv]
    refine congrArg _ (funext fun a => Fin.ext ?_)
    match a with
    | ⟨0, _⟩ => show win0_3.index t (0 : Fin 2) * 256 + 1 * p.val = p.val; omega
    | ⟨1, _⟩ => show win0_3.index t (1 : Fin 2) * 256 + 1 * r.val = r.val; omega
  -- the coordinates of the written index inside the batch entry
  have c1 : (((cfg0.win 4).blk t).view.emb y) 1 = y 1 := Fin.ext (by
    show win0_4.index t (1 : Fin 4) * 64 + 1 * (y 1).val = (y 1).val; omega)
  have c2 : (((cfg0.win 4).blk t).view.emb y) 2 = y 2 := Fin.ext (by
    show win0_4.index t (2 : Fin 4) * 128 + 1 * (y 2).val = (y 2).val; omega)
  have c3 : (((cfg0.win 4).blk t).view.emb y) 3 = y 3 := Fin.ext (by
    show win0_4.index t (3 : Fin 4) * 256 + 1 * (y 3).val = (y 3).val; omega)
  unfold blockOut result Cert.AttnSpec.whole
  rw [c1, c2, c3]
  simp only [hx, hq, hk, hv]

/-- An index of the result array is in point `t`'s block iff each coordinate is in the block's range on its axis. -/
theorem mem_blk (t : Fin cfg0.N) (i : S8x64x128x256.Idx) :
    i ∈ ((cfg0.win 4).blk t).view.set ↔ ∀ a : Fin 4, win0_4.index t a * S1x64x128x256.size a ≤ (i a).val ∧ (i a).val < win0_4.index t a * S1x64x128x256.size a + S1x64x128x256.size a := by
  show i ∈ ((View.whole main_v3).slice (win0_4.rect t)).set ↔ _
  rw [View.set_slice_whole, Rect.mem_set_unit]
  exact Iff.rfl

/-- The eight blocks cover the result array: index `i` is in the block of the point that handles batch entry `i 0`. -/
theorem cover (i : S8x64x128x256.Idx) : ∃ t : Fin cfg0.N, (cfg0.win 4).flush t = true ∧ i ∈ ((cfg0.win 4).blk t).view.set := by
  have h0 : (i 0).val < 8 := (i 0).isLt
  have h1 : (i 1).val < 64 := (i 1).isLt
  have h2 : (i 2).val < 128 := (i 2).isLt
  have h3 : (i 3).val < 256 := (i 3).isLt
  obtain ⟨t, ht⟩ := idx_onto ⟨(i 0).val, h0⟩
  obtain ⟨e0, e1, e2, e3, f1, f2, f3, -⟩ := idx_facts t
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1
              have : win0_4.index t (0 : Fin 4) = (i 0).val := ht
              omega
  | ⟨1, _⟩ => show win0_4.index t (1 : Fin 4) * 64 ≤ (i 1).val ∧ (i 1).val < win0_4.index t (1 : Fin 4) * 64 + 64; omega
  | ⟨2, _⟩ => show win0_4.index t (2 : Fin 4) * 128 ≤ (i 2).val ∧ (i 2).val < win0_4.index t (2 : Fin 4) * 128 + 128; omega
  | ⟨3, _⟩ => show win0_4.index t (3 : Fin 4) * 256 ≤ (i 3).val ∧ (i 3).val < win0_4.index t (3 : Fin 4) * 256 + 256; omega

/-- THE ARRAY after the run is the layer's function of the arguments. -/
theorem final (c : Dev nD) : (dats m 0 c).arrAt 4 cfg0.N = result m c :=
  (dats m 0 c).arrAt_eq_of_cover 4 (result m c) (fun t _ => flushed_eq m c t) (cover)

/-- The kernel's run, read: the result array at the layer's function of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Whole

end
-- ==== Proof.RefWhole.lean ====
/-
  The reference computes the layer's function.

  Read one operation at a time at an index (the generated read-at-an-index lemmas; the maximum over the time axis by
  hand, as a fold from the word -∞): the projections are plain sums; the scores' quotient by √64 is the product with
  1/8 (the scale law, on every extended real); the maximum of the fold against its own starting value is the fold;
  the host's sum starts from the word 0, which adds nothing; and the last contraction is the sum over key nodes of
  weight times value. Index by index that is the layer's function.
-/
import proofs.«111920_j46179488366786_2_alg».proof.Proof.Gen.ReferenceIdeal.Read
import proofs.«111920_j46179488366786_2_alg».proof.Proof.AttnSpec
import Idealize.ShloMosaic.Lib.ValueIdx
import Idealize.ShloMosaic.PureOps.Ideal.Laws
import Idealize.ShloMosaic.PureOps.Reduce

noncomputable section

open scoped BigOperators

namespace Cert.ReferenceIdeal.Whole

open Idealize.ShloMosaic Idealize.ShloMosaic.ValueIdx Cert.ReferenceIdeal Cert.ReferenceIdeal.Gen Cert.ReferenceIdeal.Read Cert.AttnSpec

variable (x0 : (⟨S8x64x128x256, .f32⟩ : BufTy).Contents (Elt Ideal)) (x1 x2 : (⟨S256x64, .f32⟩ : BufTy).Contents (Elt Ideal))
  (x3 : (⟨S256x256, .f32⟩ : BufTy).Contents (Elt Ideal))

local notation "LO" => Ideal.ofBits FTy.f32 0xFF800000#32
local notation "SC" => Ideal.ofBits FTy.f32 0x3E000000#32

/-- The query projection at (b, t, n, k). -/
theorem v0_eq (b : Fin 8) (t : Fin 64) (n : Fin 128) (k : Fin 64) :
    val_main_v0 (F := Ideal) x0 x1 (ix4 b t n k) = proj (fun p => x0 (ix4 b t n p)) (fun p k => x1 (ix2 p k)) k := by
  rw [val_main_v0_apply]
  unfold proj
  refine Finset.sum_congr rfl fun p _ => ?_
  refine congr (congrArg _ (congrArg x0 (funext fun a => Fin.ext ?_))) (congrArg x1 (funext fun a => Fin.ext ?_))
  · match a with
    | ⟨0, _⟩ => rfl
    | ⟨1, _⟩ => rfl
    | ⟨2, _⟩ => rfl
    | ⟨3, _⟩ => rfl
  · match a with
    | ⟨0, _⟩ => rfl
    | ⟨1, _⟩ => rfl

/-- The key projection at (b, t, n, k). -/
theorem v1_eq (b : Fin 8) (t : Fin 64) (n : Fin 128) (k : Fin 64) :
    val_main_v1 (F := Ideal) x0 x2 (ix4 b t n k) = proj (fun p => x0 (ix4 b t n p)) (fun p k => x2 (ix2 p k)) k := by
  rw [val_main_v1_apply]
  unfold proj
  refine Finset.sum_congr rfl fun p _ => ?_
  refine congr (congrArg _ (congrArg x0 (funext fun a => Fin.ext ?_))) (congrArg x2 (funext fun a => Fin.ext ?_))
  · match a with
    | ⟨0, _⟩ => rfl
    | ⟨1, _⟩ => rfl
    | ⟨2, _⟩ => rfl
    | ⟨3, _⟩ => rfl
  · match a with
    | ⟨0, _⟩ => rfl
    | ⟨1, _⟩ => rfl

/-- The value projection at (b, t, n, r). -/
theorem v2_eq (b : Fin 8) (t : Fin 64) (n : Fin 128) (r : Fin 256) :
    val_main_v2 (F := Ideal) x0 x3 (ix4 b t n r) = proj (fun p => x0 (ix4 b t n p)) (fun p r => x3 (ix2 p r)) r := by
  rw [val_main_v2_apply]
  unfold proj
  refine Finset.sum_congr rfl fun p _ => ?_
  refine congr (congrArg _ (congrArg x0 (funext fun a => Fin.ext ?_))) (congrArg x3 (funext fun a => Fin.ext ?_))
  · match a with
    | ⟨0, _⟩ => rfl
    | ⟨1, _⟩ => rfl
    | ⟨2, _⟩ => rfl
    | ⟨3, _⟩ => rfl
  · match a with
    | ⟨0, _⟩ => rfl
    | ⟨1, _⟩ => rfl

/-- The scaled scores at (b, u, i, j): the quotient by √64 is the product with the word 1/8. -/
theorem v6_eq (b : Fin 8) (u : Fin 64) (i j : Fin 128) :
    val_main_v6 (F := Ideal) x0 x1 x2 (ix4 b u i j)
      = score SC (fun t n p => x0 (ix4 b t n p)) (fun p k => x1 (ix2 p k)) (fun p k => x2 (ix2 p k)) i j u := by
  rw [val_main_v6_apply, val_main_v5_apply, val_main_v3_apply, val_main_cst_apply, val_main_v4_apply]
  simp only [Ideal.hostDivf_def, Ideal.hostUnary_sqrt_def, Ideal.ofBits_def]
  rw [scale_eq]
  unfold score
  refine congrArg (· * SC) (Finset.sum_congr rfl fun k _ => ?_)
  have el : lidx_main_v4 (ix4 b u i j) k = ix4 b u i k := funext fun a => Fin.ext (by
    match a with
    | ⟨0, _⟩ => rfl
    | ⟨1, _⟩ => rfl
    | ⟨2, _⟩ => rfl
    | ⟨3, _⟩ => rfl)
  have er : ridx_main_v4 (ix4 b u i j) k = ix4 b u j k := funext fun a => Fin.ext (by
    match a with
    | ⟨0, _⟩ => rfl
    | ⟨1, _⟩ => rfl
    | ⟨2, _⟩ => rfl
    | ⟨3, _⟩ => rfl)
  rw [el, er, v0_eq, v1_eq]

/-- Putting the time coordinate back between the batch entry and the pair of nodes. -/
theorem lift_time (h : Shape.Reduces S8x64x128x128 [1] S8x128x128) (b : Fin 8) (i j : Fin 128) (u : Fin (S8x64x128x128.size 1)) :
    h.lift (ix3 b i j) u = ix4 b (⟨u.val, u.isLt⟩ : Fin 64) i j := by
  funext a; apply Fin.ext
  match a with
  | ⟨0, _⟩ => rfl
  | ⟨1, _⟩ => rfl
  | ⟨2, _⟩ => rfl
  | ⟨3, _⟩ => rfl

/-- The maximum over the time axis at (b, i, j), after the reference's extra maximum against -∞: the fold of `max`
    over the 64 scores of the pair, from the word -∞. -/
theorem v9_eq (b : Fin 8) (i j : Fin 128) :
    val_main_v9 (F := Ideal) x0 x1 x2 (ix3 b i j)
      = Finset.univ.fold max LO (fun u : Fin 64 => val_main_v6 (F := Ideal) x0 x1 x2 (ix4 b u i j)) := by
  have hR : Shape.Reduces S8x64x128x128 [1] S8x128x128 := by decide
  have hfold : val_main_v7 (F := Ideal) x0 x1 x2 (ix3 b i j)
      = Finset.univ.fold max LO (fun u : Fin 64 => val_main_v6 (F := Ideal) x0 x1 x2 (ix4 b u i j)) := by
    unfold val_main_v7
    refine (Host.reduce_eq_fold_single (α := Ideal .f32) (FloatOps.maximumf (F := Ideal) (φ := .f32)) (val_main_v6 (F := Ideal) x0 x1 x2) (val_main_cst_0 (F := Ideal))
      reducesTo_S8x64x128x128_S8x128x128_d1 hR h_S_ (ix3 b i j)).trans ?_
    refine congrArg (fun f => Finset.univ.fold max LO f) (funext fun u => ?_)
    exact congrArg (val_main_v6 (F := Ideal) x0 x1 x2) (lift_time hR b i j u)
  rw [val_main_v9_apply, val_main_v8_apply, val_main_cst_1_apply, hfold]
  exact max_start_fold _ _ _

/-- The exponentials at (b, u, i, j). -/
theorem v13_eq (b : Fin 8) (u : Fin 64) (i j : Fin 128) :
    val_main_v13 (F := Ideal) x0 x1 x2 (ix4 b u i j)
      = Ideal.exp (val_main_v6 (F := Ideal) x0 x1 x2 (ix4 b u i j)
          - Finset.univ.fold max LO (fun v : Fin 64 => val_main_v6 (F := Ideal) x0 x1 x2 (ix4 b v i j))) := by
  rw [val_main_v13_apply, val_main_v12_apply, val_main_v11_apply, val_main_v10_apply]
  have e : idx_main_v10 (idx_main_v11 (ix4 b u i j)) = ix3 b i j := funext fun a => Fin.ext (by
    match a with
    | ⟨0, _⟩ => rfl
    | ⟨1, _⟩ => rfl
    | ⟨2, _⟩ => rfl)
  rw [e, v9_eq]
  rfl

/-- The softmax weights at (b, t, i, j). -/
theorem v17_eq (b : Fin 8) (t : Fin 64) (i j : Fin 128) :
    val_main_v17 (F := Ideal) x0 x1 x2 (ix4 b t i j)
      = soft LO (fun u : Fin 64 => val_main_v6 (F := Ideal) x0 x1 x2 (ix4 b u i j)) t := by
  rw [val_main_v17_apply, val_main_v16_apply, val_main_v15_apply, val_main_v14_apply, val_main_cst_2_apply, v13_eq]
  simp only [Ideal.hostDivf_def, Ideal.ofBits_def]
  rw [ofBits_zero, zero_add]
  unfold soft
  refine congrArg (Ideal.div _) (Finset.sum_congr rfl fun u _ => ?_)
  have e : idx_main_v14 (idx_main_v15 (idx_main_v16 (ix4 b t i j))) u = ix4 b u i j := funext fun a => Fin.ext (by
    match a with
    | ⟨0, _⟩ => rfl
    | ⟨1, _⟩ => rfl
    | ⟨2, _⟩ => rfl
    | ⟨3, _⟩ => rfl)
  rw [e, v13_eq]

/-- THE REFERENCE IS THE LAYER'S FUNCTION, index by index. -/
theorem result_eq : val_main_v18 (F := Ideal) x0 x1 x2 x3 = Cert.AttnSpec.whole x0 x1 x2 x3 := by
  funext idx
  obtain ⟨b, t, i, r, rfl⟩ : ∃ (b : Fin 8) (t : Fin 64) (i : Fin 128) (r : Fin 256), idx = ix4 b t i r :=
    ⟨idx 0, idx 1, idx 2, idx 3, eq_ix4 idx⟩
  rw [val_main_v18_apply]
  unfold Cert.AttnSpec.whole attn
  refine Finset.sum_congr rfl fun j _ => ?_
  have el : lidx_main_v18 (ix4 b t i r) j = ix4 b t i j := funext fun a => Fin.ext (by
    match a with
    | ⟨0, _⟩ => rfl
    | ⟨1, _⟩ => rfl
    | ⟨2, _⟩ => rfl
    | ⟨3, _⟩ => rfl)
  have er : ridx_main_v18 (ix4 b t i r) j = ix4 b t j r := funext fun a => Fin.ext (by
    match a with
    | ⟨0, _⟩ => rfl
    | ⟨1, _⟩ => rfl
    | ⟨2, _⟩ => rfl
    | ⟨3, _⟩ => rfl)
  rw [el, er, v17_eq, v2_eq]
  refine congr (congrArg _ (congr (congrArg _ (funext fun u => ?_)) rfl)) rfl
  exact v6_eq x0 x1 x2 b u i j

end Cert.ReferenceIdeal.Whole

end
-- ==== Proof.lean ====
/-
  The proof of `Cert.Claim`: the kernel and its reference compute the same attention layer on the extended reals.

  The layer, for a batch entry x[t, n, p] and weights wq, wk, wv: queries, keys and values are the three projections of
  x; the score of query node i against key node j at time t is (q[t,i,·] · k[t,j,·]) scaled by 1/8; the scores of each
  pair (i, j) are normalised by a softmax DOWN THE 64 TIME STEPS; the output at (t, i, ·) is the sum over key nodes j of
  weight[t,i,j] · v[t,j,·]  (Proof/AttnSpec.lean states it once as a function of the four argument arrays).

  The kernel (one grid point per batch entry) fills a key scratch and a value scratch chunk by chunk, reads them back,
  and writes the output slab by slab; each store's payload is the layer's function where the store lands
  (Proof/Stages.lean reads the body's operations at an index; Proof/Block.lean assembles a block; Proof/KernelWhole.lean
  the array). The reference performs the same operations in the same order on whole arrays (Proof/RefWhole.lean). The
  two differ in two spellings only, both equalities on EVERY extended real, so the precondition is never opened:
  the scale — a product with the word 1/8 against a quotient by √64 — and the reference's maximum of the fold of maxima
  against the fold's own starting value -∞. A change of float format is the identity and a sum has no order here.

  The frames of the two kernel programs are their generated frame certificates; the reference's frame is its generated
  run with the result dropped; the idealization rewrote no operation, so there is nothing to preserve.
-/
import proofs.«111920_j46179488366786_2_alg».proof.Defs
import proofs.«111920_j46179488366786_2_alg».proof.Proof.Gen.Kernel
import proofs.«111920_j46179488366786_2_alg».proof.Proof.Gen.Kernel.Skeleton
import proofs.«111920_j46179488366786_2_alg».proof.Proof.Gen.Kernel.Launch
import proofs.«111920_j46179488366786_2_alg».proof.Proof.Gen.Kernel.Points
import proofs.«111920_j46179488366786_2_alg».proof.Proof.Gen.Kernel.Frame
import proofs.«111920_j46179488366786_2_alg».proof.Proof.Gen.KernelIdeal
import proofs.«111920_j46179488366786_2_alg».proof.Proof.Gen.KernelIdeal.Skeleton
import proofs.«111920_j46179488366786_2_alg».proof.Proof.Gen.KernelIdeal.Launch
import proofs.«111920_j46179488366786_2_alg».proof.Proof.Gen.KernelIdeal.Points
import proofs.«111920_j46179488366786_2_alg».proof.Proof.Gen.KernelIdeal.Frame
import proofs.«111920_j46179488366786_2_alg».proof.Proof.Gen.ReferenceIdeal
import proofs.«111920_j46179488366786_2_alg».proof.Proof.Gen.Pre_finite_inputs
import proofs.«111920_j46179488366786_2_alg».proof.Proof.Gen.KernelIdeal.Value
import proofs.«111920_j46179488366786_2_alg».proof.Proof.Gen.ReferenceIdeal.Run
import proofs.«111920_j46179488366786_2_alg».proof.Proof.Gen.ReferenceIdeal.Read
import proofs.«111920_j46179488366786_2_alg».proof.Proof.KernelWhole
import proofs.«111920_j46179488366786_2_alg».proof.Proof.RefWhole
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the four arguments both programs end with the result array at the layer's function of the
    arguments: the kernel by its blocks, the reference operation by operation. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.Whole.result_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
